-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S256x64 : Shape := ⟨2, ![256, 64]⟩
abbrev S64 : Shape := ⟨1, ![64]⟩
abbrev S2x1600000 : Shape := ⟨2, ![2, 1600000]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : FVec F S256x128 .f32) (main_arg2 : FVec F S128 .f32) (main_arg3 : FVec F S256x64 .f32) (main_arg4 : FVec F S64 .f32) (main_arg5 : IVec S2x1600000 32) (main_arg6 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S100000x256 : Shape := ⟨2, ![100000, 256]⟩
abbrev S256x128 : Shape := ⟨2, ![256, 128]⟩
abbrev S128 : Shape := ⟨1, ![128]⟩
abbrev S256x64 : Shape := ⟨2, ![256, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S128x64 : Shape := ⟨2, ![128, 64]⟩
abbrev S128x128 : Shape := ⟨2, ![128, 128]⟩
abbrev S100000x64 : Shape := ⟨2, ![100000, 64]⟩
abbrev S100000x1 : Shape := ⟨2, ![100000, 1]⟩
abbrev S100000x2 : Shape := ⟨2, ![100000, 2]⟩
abbrev S1700000x64 : Shape := ⟨2, ![1700000, 64]⟩
abbrev S1x64 : Shape := ⟨2, ![1, 64]⟩

abbrev nBuf : Space → Nat
  | .hbm => 113
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S256x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .bf16⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .bf16⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S128x64, .f32⟩
  | .hbm, ⟨72, _⟩ => ⟨S128x64, .f32⟩
  | .hbm, ⟨73, _⟩ => ⟨S128x64, .f32⟩
  | .hbm, ⟨74, _⟩ => ⟨S128x128, .f32⟩
  | .hbm, ⟨75, _⟩ => ⟨S100000x128, .bf16⟩
  | .hbm, ⟨76, _⟩ => ⟨S100000x64, .bf16⟩
  | .hbm, ⟨77, _⟩ => ⟨S100000x64, .f32⟩
  | .hbm, ⟨78, _⟩ => ⟨S_, .i32⟩
  | .hbm, ⟨79, _⟩ => ⟨S100000, .i32⟩
  | .hbm, ⟨80, _⟩ => ⟨S100000, .i1⟩
  | .hbm, ⟨81, _⟩ => ⟨S_, .i32⟩
  | .hbm, ⟨82, _⟩ => ⟨S100000, .i32⟩
  | .hbm, ⟨83, _⟩ => ⟨S100000, .i32⟩
  | .hbm, ⟨84, _⟩ => ⟨S100000, .i32⟩
  | .hbm, ⟨85, _⟩ => ⟨S100000x1, .i32⟩
  | .hbm, ⟨86, _⟩ => ⟨S_, .i32⟩
  | .hbm, ⟨87, _⟩ => ⟨S100000x1, .i32⟩
  | .hbm, ⟨88, _⟩ => ⟨S100000x2, .i32⟩
  | .hbm, ⟨89, _⟩ => ⟨S100000x64, .bf16⟩
  | .hbm, ⟨90, _⟩ => ⟨S100000x64, .f32⟩
  | .hbm, ⟨91, _⟩ => ⟨S100000x64, .f32⟩
  | .hbm, ⟨92, _⟩ => ⟨S100000x64, .bf16⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x64, .bf16⟩
  | .hbm, ⟨102, _⟩ => ⟨S1700000x64, .f32⟩
  | .hbm, ⟨103, _⟩ => ⟨S1700000x1, .f32⟩
  | .hbm, ⟨104, _⟩ => ⟨S1700000x64, .f32⟩
  | .hbm, ⟨105, _⟩ => ⟨S1700000x64, .f32⟩
  | .hbm, ⟨106, _⟩ => ⟨S_, .f32⟩
  | .hbm, ⟨107, _⟩ => ⟨S100000x64, .f32⟩
  | .hbm, ⟨108, _⟩ => ⟨S1700000x1, .i32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .bf16⟩
  | .local _ .vmem, ⟨9, _⟩ => ⟨S10000x128, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S256x64_S128x64_0_0 : S256x64.Slices ![0, 0] S128x64
  slices_S256x64_S128x64_128_0 : S256x64.Slices ![128, 0] S128x64
  concatenates_S128x64_S128x64_S128x128_d1 : Shape.Concatenates [S128x64, S128x64] S128x128 1
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x64_0_0 : S100000x128.Slices ![0, 0] S100000x64
  bcast_S100000_S100000x1_0 : S100000.BroadcastsInDim S100000x1 (![0] : Fin 1 → Fin S100000x1.rank)
  bcast_S_S100000x1 : S_.BroadcastsInDim S100000x1 (![] : Fin 0 → Fin S100000x1.rank)
  concatenates_S100000x1_S100000x1_S100000x2_d1 : Shape.Concatenates [S100000x1, S100000x1] S100000x2 1
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  gather_S100000x128_S100000x2_S100000x64_1_0_n_n_01_1_164_wf : GatherDims.WF S100000x128 S100000x2 S100000x64 [1] [0] [] [0, 1] [] 1 ![1, 64]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .bf16 = 32 ∨ (Rect.block (s := S100000x128) S10000x128.size (cc1_transform_2 i) (hinb1_2 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S100000x2_S100000x64_1_0_n_n_01_1_164 : GatherDims S100000x128 S100000x2 S100000x64 where
  offsetDims := [1]
  collapsedSliceDims := [0]
  operandBatchingDims := []
  startIndicesBatchingDims := []
  startIndexMap := [0, 1]
  indexVectorDim := 1
  sliceSizes := ![1, 64]
  wf := gather_S100000x128_S100000x2_S100000x64_1_0_n_n_01_1_164_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S256x64 : Shape := ⟨2, ![256, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S256x64, .f32⟩
  | 4 => ⟨S64, .f32⟩
  | 5 => ⟨S2x1600000, .i32⟩
  | 6 => ⟨S100000, .i32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S100000x128, .f32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000x128, .f32⟩
  | 79 => ⟨S100000x128, .f32⟩
  | 80 => ⟨S100000x256, .f32⟩
  | 81 => ⟨S100000x64, .f32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x256, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_19 : Ref sig .tc := ⟨.hbm, 115, rfl⟩
abbrev main_v81 : Ref sig .tc := ⟨.hbm, 116, rfl⟩
abbrev main_v82 : Ref sig .tc := ⟨.hbm, 117, rfl⟩
abbrev main_c_20 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S100000x1_S100000x128_1_0_n_n_0_1_1128_wf : GatherDims.WF S100000x128 S100000x1 S100000x128 [1] [0] [] [0] [] 1 ![1, 128]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its result named. From any memory with zero counters every weakly fair execution
  of @main terminates without a fault; in the final state the argument arrays are as launched, and the result array
  holds what the last stretch of host operations leaves at the result's reference when it starts from the second
  matrix product's exit contents: the last boundary's contents of the fold through @main's nine segments (three
  stretches of host operations, the first product, three stretches, the second product, one stretch).
-/
import proofs.«115430_j29643864277064_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result array ends at the last boundary's
    contents and every argument array as launched. The result's reference is unscoped, so the final state is read
    against the last boundary's contents there exactly as it is at each argument. -/
theorem run_value : θ_run defs (onTc (τ := τ) (main (F := F))) ⟨m, fun _ => 0, ρ⟩ (fun r => ∀ c : Dev nD,
      r.2.mem ((c.tc : Thread nD τ).loc main_v84) = W9 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v84 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Hand

end
-- ==== Proof.KernelHost0.lean ====
/-
  The idealized kernel's host operations before its first matrix product, read back. The edge list's two rows with the
  self-loops appended (the source and the destination node of every edge) and the symmetric degree normalisation of
  every edge are computed by the same operations, in the same order, as in the reference: each buffer at the first
  product's entry IS the reference's stage of the same name, as a function of the edge list alone. The argument
  arrays are written by no operation.
-/
import proofs.«115430_j29643864277064_2_alg».proof.Proof.Gen.KernelIdeal.Frame
import proofs.«115430_j29643864277064_2_alg».proof.Proof.RefRead

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg)

/-- A stretch of host operations leaves a buffer none of them writes as it found it. -/
macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## At the first product's entry -/

/-- The source node of every edge, self-loops appended. -/
theorem W3_src (c : Dev nD) :
    W3 m ρ c (Proc.devRef .tc main_v3) = Cert.ReferenceIdeal.Read.val_main_v3 (F := F) (m ((c.tc : Thread nD τ).loc main_arg5)) := by
  dsimp only [W3, W2, W1, W0, hostOps0_2, hostOps0_1, hostOps0]
  after_results
  rfl

/-- The destination node of every edge, self-loops appended. -/
theorem W3_dst (c : Dev nD) :
    W3 m ρ c (Proc.devRef .tc main_v6) = Cert.ReferenceIdeal.Read.val_main_v6 (F := F) (m ((c.tc : Thread nD τ).loc main_arg5)) := by
  dsimp only [W3, W2, W1, W0, hostOps0_2, hostOps0_1, hostOps0]
  after_results
  rfl

/-- The normalisation of every edge: the product of the inverse square roots of its two nodes' degrees. -/
theorem W3_norm (c : Dev nD) :
    W3 m ρ c (Proc.devRef .tc main_v29) = Cert.ReferenceIdeal.Read.val_main_v30 (F := F) (m ((c.tc : Thread nD τ).loc main_arg5)) := by
  dsimp only [W3, W2, W1, W0, hostOps0_2, hostOps0_1, hostOps0]
  after_results_simp
  rfl

/-! ## The arguments at the first product's entry -/

/-- No operation before the first product writes argument 0. -/
theorem W3_arg0 (c : Dev nD) : W3 m ρ c (Proc.devRef .tc main_arg0) = m ((c.tc : Thread nD τ).loc main_arg0) := by
  dsimp only [W3, W2, W1, W0, hostOps0_2, hostOps0_1, hostOps0]
  after_results_simp <;> rfl

/-- No operation before the first product writes argument 1. -/
theorem W3_arg1 (c : Dev nD) : W3 m ρ c (Proc.devRef .tc main_arg1) = m ((c.tc : Thread nD τ).loc main_arg1) := by
  dsimp only [W3, W2, W1, W0, hostOps0_2, hostOps0_1, hostOps0]
  after_results_simp <;> rfl

/-- No operation before the first product writes argument 2. -/
theorem W3_arg2 (c : Dev nD) : W3 m ρ c (Proc.devRef .tc main_arg2) = m ((c.tc : Thread nD τ).loc main_arg2) := by
  dsimp only [W3, W2, W1, W0, hostOps0_2, hostOps0_1, hostOps0]
  after_results_simp <;> rfl

/-- No operation before the first product writes argument 3. -/
theorem W3_arg3 (c : Dev nD) : W3 m ρ c (Proc.devRef .tc main_arg3) = m ((c.tc : Thread nD τ).loc main_arg3) := by
  dsimp only [W3, W2, W1, W0, hostOps0_2, hostOps0_1, hostOps0]
  after_results_simp <;> rfl

/-- No operation before the first product writes argument 4. -/
theorem W3_arg4 (c : Dev nD) : W3 m ρ c (Proc.devRef .tc main_arg4) = m ((c.tc : Thread nD τ).loc main_arg4) := by
  dsimp only [W3, W2, W1, W0, hostOps0_2, hostOps0_1, hostOps0]
  after_results_simp <;> rfl

/-- No operation before the first product writes argument 6. -/
theorem W3_arg6 (c : Dev nD) : W3 m ρ c (Proc.devRef .tc main_arg6) = m ((c.tc : Thread nD τ).loc main_arg6) := by
  dsimp only [W3, W2, W1, W0, hostOps0_2, hostOps0_1, hostOps0]
  after_results_simp <;> rfl

end Cert.KernelIdeal.Hand

end
-- ==== Proof.Tails.lean ====
/-
  Each layer of the reference, after its matrix product, is one function of that product: rows gathered along the
  edges, each scaled by its edge's normalisation, summed per destination node, the bias added (and, in the first
  layer, the result clamped below at zero). Naming the two functions lets the two programs be compared by comparing
  the matrix products alone: the rest of a layer is the same function on both sides and is never opened.
-/
import proofs.«115430_j29643864277064_2_alg».proof.Proof.RefRead

noncomputable section

namespace Cert.Hand.Tails

open Cert.ReferenceIdeal Cert.ReferenceIdeal.Read Idealize.ShloMosaic Idealize.ShloMosaic.TcCoe

variable {F : FTy → Type} [FloatOps F]

/-- The first layer after its product `X` (one row of 128 per node): gather the source node's row along every edge,
    scale by the edge's normalisation, sum into the destination node, add the bias, clamp below at zero. -/
def layer1 (X : (⟨S100000x128, .f32⟩ : BufTy).Contents (Elt F)) (x2 : (⟨S128, .f32⟩ : BufTy).Contents (Elt F)) (x5 : (⟨S2x1600000, .i32⟩ : BufTy).Contents (Elt F)) :
    (⟨S100000x128, .f32⟩ : BufTy).Contents (Elt F) :=
  maximumf
    (addf
      (Host.scatterAdd scatter_S100000x128_S1700000x1_S1700000x128_1_0_0_1 (val_main_v41 (F := F)) (val_main_v42 (F := F) x5)
        (mulf (Host.gather gather_S100000x128_S1700000x1_S1700000x128_1_0_n_n_0_1_1128 X (val_main_v36 (F := F) x5))
          (val_main_v39 (F := F) x5)))
      (val_main_v45 (F := F) x2))
    (val_main_call1_v0 (F := F))

/-- The reference's hidden layer is `layer1` of its first product. -/
theorem hidden_eq (x0 : (⟨S100000x256, .f32⟩ : BufTy).Contents (Elt F)) (x1 : (⟨S256x128, .f32⟩ : BufTy).Contents (Elt F)) (x2 : (⟨S128, .f32⟩ : BufTy).Contents (Elt F))
    (x5 : (⟨S2x1600000, .i32⟩ : BufTy).Contents (Elt F)) :
    val_main_v47 (F := F) x0 x1 x2 x5 = layer1 (val_main_v7 (F := F) x0 x1) x2 x5 := rfl

/-- The second layer after its product `X` (one row of 64 per node): gather, scale, sum per destination, add the bias. -/
def layer2 (X : (⟨S100000x64, .f32⟩ : BufTy).Contents (Elt F)) (x4 : (⟨S64, .f32⟩ : BufTy).Contents (Elt F)) (x5 : (⟨S2x1600000, .i32⟩ : BufTy).Contents (Elt F)) :
    (⟨S100000x64, .f32⟩ : BufTy).Contents (Elt F) :=
  addf
    (Host.scatterAdd scatter_S100000x64_S1700000x1_S1700000x64_1_0_0_1 (val_main_v91 (F := F)) (val_main_v92 (F := F) x5)
      (mulf (Host.gather gather_S100000x64_S1700000x1_S1700000x64_1_0_n_n_0_1_164 X (val_main_v86 (F := F) x5))
        (val_main_v89 (F := F) x5)))
    (val_main_v95 (F := F) x4)

/-- The reference's result is `layer2` of its second product. -/
theorem result_eq (x0 : (⟨S100000x256, .f32⟩ : BufTy).Contents (Elt F)) (x1 : (⟨S256x128, .f32⟩ : BufTy).Contents (Elt F)) (x2 : (⟨S128, .f32⟩ : BufTy).Contents (Elt F))
    (x3 : (⟨S256x64, .f32⟩ : BufTy).Contents (Elt F)) (x4 : (⟨S64, .f32⟩ : BufTy).Contents (Elt F)) (x5 : (⟨S2x1600000, .i32⟩ : BufTy).Contents (Elt F)) (x6 : (⟨S100000, .i32⟩ : BufTy).Contents (Elt F)) :
    val_main_v96 (F := F) x0 x1 x2 x3 x4 x5 x6 = layer2 (val_main_v57 (F := F) x0 x1 x2 x3 x5 x6) x4 x5 := rfl

end Cert.Hand.Tails

end
-- ==== Proof.Layer2Layout.lean ====
/-
  Three layout operations of the second layer, each read at an index given by its row and column.

  * The kernel keeps the first 64 of the 128 columns its matrix product writes: a slice with zero offsets reads
    its operand at the same row and column.
  * The kernel's folded weight: from a 256 × 64 matrix, the top 128 rows and, to their right, the bottom 128 rows
    less the top 128 rows. At `(k, j)` it is the matrix at `(k, j)` for `j < 64`, and the matrix at
    `(k + 128, j - 64)` less the matrix at `(k, j - 64)` from column 64 on.
  * The reference lays two 100000 × 128 arrays side by side: at `(i, k)` the result is the left array at `(i, k)`
    for `k < 128` and the right array at `(i, k - 128)` from column 128 on.

  The first and the third hold for arrays of any element type; the second is stated over the extended reals, where
  the subtraction of two arrays is the subtraction of their entries.
-/
import proofs.«115430_j29643864277064_2_alg».proof.KernelIdeal
import proofs.«115430_j29643864277064_2_alg».proof.Proof.RefRead
import Idealize.ShloMosaic.Lib.ValueIdx
import Idealize.ShloMosaic.Lib.Pipeline.Value
import Idealize.ShloMosaic.Lib.ValueLayout

noncomputable section

namespace Cert.Hand.Layout

open Idealize.ShloMosaic Idealize.ShloMosaic.ValueIdx

variable {F : FTy → Type} [FloatOps F]

/-! ## The kernel's operations -/

section Kernel
variable [Cert.KernelIdeal.Facts₀]
open Cert.KernelIdeal Cert.KernelIdeal.Facts₀

/-- The cut of the first 64 of 128 columns, read at row `i` and column `j`: the operand at the same row and
column. -/
theorem slice64_apply {α : Type} (Y : S100000x128.Idx → α) (i : Fin 100000) (j : Fin 64) :
    extractStridedSlice S100000x64 ![0, 0] Y slices_S100000x128_S100000x64_0_0 (ix2 i j)
      = Y (ix2 i ⟨j.val, by omega⟩) :=
  slice2_axis1_apply 0 Y slices_S100000x128_S100000x64_0_0 i j ⟨j.val, by omega⟩ (Nat.zero_add _).symm

/-- The folded weight: the top 128 rows of a 256 × 64 matrix, and to their right the bottom 128 rows less the
top 128 rows — a 128 × 128 matrix. -/
def w2c (x3 : (⟨S256x64, .f32⟩ : BufTy).Contents (Elt F)) : (⟨S128x128, .f32⟩ : BufTy).Contents (Elt F) :=
  concatenate S128x128 1
    [⟨S128x64, extractStridedSlice S128x64 ![0, 0] x3 slices_S256x64_S128x64_0_0⟩,
     ⟨S128x64, subf (extractStridedSlice S128x64 ![128, 0] x3 slices_S256x64_S128x64_128_0)
                 (extractStridedSlice S128x64 ![0, 0] x3 slices_S256x64_S128x64_0_0)⟩]
    concatenates_S128x64_S128x64_S128x128_d1

/-- The folded weight over the extended reals, read at row `k` and column `j`: in the left half the matrix's
entry `(k, j)`; in the right half its entry `(k + 128, j - 64)` less its entry `(k, j - 64)`. -/
theorem w2c_apply (x3 : (⟨S256x64, .f32⟩ : BufTy).Contents (Elt Ideal)) (k : Fin 128) (j : Fin 128) :
    w2c (F := Ideal) x3 (ix2 k j)
      = if hj : j.val < 64 then x3 (ix2 ⟨k.val, by omega⟩ ⟨j.val, hj⟩)
        else x3 (ix2 ⟨k.val + 128, by omega⟩ ⟨j.val - 64, by omega⟩)
              - x3 (ix2 ⟨k.val, by omega⟩ ⟨j.val - 64, by omega⟩) := by
  unfold w2c
  by_cases hj : j.val < 64
  · rw [dif_pos hj]
    refine (concatenate_pair_apply_left (t := S128x128) (s₁ := S128x64) (s₂ := S128x64) (1 : Fin 2) _ _
      concatenates_S128x64_S128x64_S128x128_d1 (ix2 k j) rfl
      (ix2 k (⟨j.val, hj⟩ : Fin 64)) (fun b => by
        match b with
        | ⟨0, _⟩ => rfl
        | ⟨1, _⟩ => rfl)).trans ?_
    exact slice2_axis0_apply 0 x3 slices_S256x64_S128x64_0_0 k ⟨j.val, hj⟩ ⟨k.val, by omega⟩ (Nat.zero_add _).symm
  · rw [dif_neg hj]
    refine (concatenate_pair_apply_right (t := S128x128) (s₁ := S128x64) (s₂ := S128x64) (1 : Fin 2) _ _
      concatenates_S128x64_S128x64_S128x128_d1 (ix2 k j) rfl rfl
      (ix2 k (⟨j.val - 64, by omega⟩ : Fin 64)) (fun b hb => by
        match b with
        | ⟨0, _⟩ => rfl
        | ⟨1, _⟩ => exact absurd rfl hb) (by show j.val - 64 + 64 = j.val; omega)).trans ?_
    have e1 := slice2_axis0_apply 128 x3 slices_S256x64_S128x64_128_0 k (⟨j.val - 64, by omega⟩ : Fin 64)
      (⟨k.val + 128, by omega⟩ : Fin 256) (Nat.add_comm _ _)
    have e2 := slice2_axis0_apply 0 x3 slices_S256x64_S128x64_0_0 k (⟨j.val - 64, by omega⟩ : Fin 64)
      (⟨k.val, by omega⟩ : Fin 256) (Nat.zero_add _).symm
    change FloatOps.subf _ _ = _
    rw [e1, e2]
    rfl

end Kernel

/-! ## The reference's operation -/

section Reference
variable [Cert.ReferenceIdeal.Facts₀]
open Cert.ReferenceIdeal Cert.ReferenceIdeal.Facts₀

/-- Two 100000 × 128 arrays laid side by side, read at row `i` and column `k`: the left array at `(i, k)` for a
column below 128, the right array at `(i, k - 128)` from column 128 on. -/
theorem concat256_apply {α : Type} (A B : S100000x128.Idx → α) (i : Fin 100000) (k : Fin 256) :
    concatenate S100000x256 1 [⟨S100000x128, A⟩, ⟨S100000x128, B⟩]
        concatenates_S100000x128_S100000x128_S100000x256_d1 (ix2 i k)
      = if hk : k.val < 128 then A (ix2 i ⟨k.val, hk⟩) else B (ix2 i ⟨k.val - 128, by omega⟩) := by
  by_cases hk : k.val < 128
  · rw [dif_pos hk]
    exact concatenate_pair_apply_left (t := S100000x256) (s₁ := S100000x128) (s₂ := S100000x128) (1 : Fin 2) A B
       concatenates_S100000x128_S100000x128_S100000x256_d1 (ix2 i k) rfl
      (ix2 i (⟨k.val, hk⟩ : Fin 128)) (fun b => by
        match b with
        | ⟨0, _⟩ => rfl
        | ⟨1, _⟩ => rfl)
  · rw [dif_neg hk]
    exact concatenate_pair_apply_right (t := S100000x256) (s₁ := S100000x128) (s₂ := S100000x128) (1 : Fin 2) A B
       concatenates_S100000x128_S100000x128_S100000x256_d1 (ix2 i k)
      rfl rfl (ix2 i (⟨k.val - 128, by omega⟩ : Fin 128)) (fun b hb => by
        match b with
        | ⟨0, _⟩ => rfl
        | ⟨1, _⟩ => exact absurd rfl hb) (by show k.val - 128 + 128 = k.val; omega)

end Reference

end Cert.Hand.Layout
-- ==== Proof.KernelHost1.lean ====
/-
  The idealized kernel's host operations between its two matrix products, read back.

  After the first product has written its output array, the kernel gathers that array's rows along the edges, scales
  each by its edge's normalisation, sums them into the destination nodes, adds the bias and clamps below at zero:
  the same operations, in the same order, as the reference's first layer after its product. So the hidden layer at the
  second product's entry IS that function of the first product's output array, of the bias and of the edge list — the
  source and destination lists and the normalisation it reads were computed before the first product, which writes
  none of them. The widening of the output array's entries to single precision is the identity where a float is an
  extended real.

  The second operand of the second product is the folded weight: the top half of the second layer's weight and, to its
  right, the bottom half less the top half — four layout operations on the weight argument, which nothing before writes.

  Last, the buffers the operations after the second product will read — the source and destination lists, the
  normalisation, the second bias and the permutation — are written by none of the operations between the two
  products, nor by the first product: at the second product's entry they hold what they held at the first's.

  Each buffer is first read back at an arbitrary float instance, where the float operations are opaque and the read-back
  only unfolds the list of operations; the comparison with the reference's first layer, which needs the widening to be
  the identity, is then made once, over arbitrary arrays, at the instance of extended reals.
-/
import proofs.«115430_j29643864277064_2_alg».proof.Proof.KernelHost0
import proofs.«115430_j29643864277064_2_alg».proof.Proof.Tails
import proofs.«115430_j29643864277064_2_alg».proof.Proof.Layer2Layout

set_option maxRecDepth 16384

noncomputable section

namespace Cert.KernelIdeal.Hand1

open Cert.KernelIdeal Cert.KernelIdeal.Gen Cert.KernelIdeal.Hand
open Idealize.ShloMosaic Idealize.ShloMosaic.TcCoe Idealize.ShloMosaic.Tactic Idealize.ShloMosaic.StableHlo
open Idealize.SL.Sem

/-! ## The operations between the two products, at any float instance

Stated at an arbitrary float instance, where the float operations are opaque: each buffer is then read back by
unfolding the list of operations alone. -/

section AnyInstance
variable {F : FTy → Type} [FloatOps F]
variable (m : (ℓ : Loc nD τ sig) → Buf (Elt F) ℓ) (ρ : Dev nD → PrngReg)

/-- The kernel's operations from its first product's output to the bias addition, as one function of the buffers they
    read: the output array `X` (half-precision entries, widened before use), the source and destination lists, the
    edges' normalisation and the bias. -/
def pre1 (X : (⟨S100000x128, .bf16⟩ : BufTy).Contents (Elt F)) (src dst : (⟨S1700000, .i32⟩ : BufTy).Contents (Elt F))
    (norm : (⟨S1700000, .f32⟩ : BufTy).Contents (Elt F)) (b1 : (⟨S128, .f32⟩ : BufTy).Contents (Elt F)) :
    (⟨S100000x128, .f32⟩ : BufTy).Contents (Elt F) :=
  addf (F := F) (φ := .f32)
    (Host.scatterAdd (F := F) (φ := .f32) scatter_S100000x128_S1700000x1_S1700000x128_1_0_0_1
      (broadcastInDim S100000x128 ![] bcast_S_S100000x128 (constant (F := F) S_ .f32 0x00000000#32))
      (broadcastInDim S1700000x1 ![0] bcast_S1700000_S1700000x1_0 dst)
      (mulf (F := F) (φ := .f32)
        (extf (F := F) (φ := .bf16) .f32
          (Host.gather gather_S100000x128_S1700000x1_S1700000x128_1_0_n_n_0_1_1128 X
            (broadcastInDim S1700000x1 ![0] bcast_S1700000_S1700000x1_0
              (select (cmpi .slt src (broadcastInDim S1700000 ![] bcast_S_S1700000 (constantI S_ 32 0#32)))
                (addi src (broadcastInDim S1700000 ![] bcast_S_S1700000 (constantI S_ 32 100000#32))) src)))
          bitsLt_bf16_f32)
        (broadcastInDim S1700000x128 ![0, 1] bcast_S1700000x1_S1700000x128_0_1
          (broadcastInDim S1700000x1 ![0] bcast_S1700000_S1700000x1_0 norm))))
    (broadcastInDim S100000x128 ![0, 1] bcast_S1x128_S100000x128_0_1 (broadcastInDim S1x128 ![1] bcast_S128_S1x128_1 b1))

/-- The clamp below at zero. -/
def clamp0 (P : (⟨S100000x128, .f32⟩ : BufTy).Contents (Elt F)) : (⟨S100000x128, .f32⟩ : BufTy).Contents (Elt F) :=
  maximumf (F := F) (φ := .f32) P
    (broadcastInDim S100000x128 ![] bcast_S_S100000x128 (constant (F := F) S_ .f32 0x00000000#32))

set_option maxHeartbeats 1000000 in
/-- The pre-activation, after the first stretch of operations that follows the first product. -/
theorem W5_pre (c : Dev nD) :
    W5 m ρ c (Proc.devRef .tc main_v47)
      = pre1 (W4 m ρ c (Proc.devRef .tc main_v30)) (W4 m ρ c (Proc.devRef .tc main_v3)) (W4 m ρ c (Proc.devRef .tc main_v6))
          (W4 m ρ c (Proc.devRef .tc main_v29)) (W4 m ρ c (Proc.devRef .tc main_arg2)) := by
  dsimp only [W5, hostOps1]
  after_results_simp
  generalize W4 m ρ c (Proc.devRef .tc main_v30) = X
  generalize W4 m ρ c (Proc.devRef .tc main_v3) = src
  generalize W4 m ρ c (Proc.devRef .tc main_v6) = dst
  generalize W4 m ρ c (Proc.devRef .tc main_v29) = norm
  generalize W4 m ρ c (Proc.devRef .tc main_arg2) = b1
  rfl

/-- The clamp, after the second stretch. -/
theorem W6_hidden (c : Dev nD) :
    W6 m ρ c (Proc.devRef .tc main_v48) = clamp0 (W5 m ρ c (Proc.devRef .tc main_v47)) := by
  dsimp only [W6, hostOps1_1]
  after_results_simp
  generalize W5 m ρ c (Proc.devRef .tc main_v47) = P
  rfl

/-- The folded weight, after the third stretch, from the weight argument's buffer as the second stretch left it. -/
theorem W7_w2c_of_W6 (c : Dev nD) :
    W7 m ρ c (Proc.devRef .tc main_v52) = Cert.Hand.Layout.w2c (F := F) (W6 m ρ c (Proc.devRef .tc main_arg3)) := by
  dsimp only [W7, hostOps1_2]
  after_results
  generalize W6 m ρ c (Proc.devRef .tc main_arg3) = x3
  rfl

/-! ### Buffers the stretch between the two products leaves alone -/

/-- The source list is written neither by the first product nor by any operation up to the second. -/
theorem W7_keeps_main_v3 (c : Dev nD) : W7 m ρ c (Proc.devRef .tc main_v3) = W3 m ρ c (Proc.devRef .tc main_v3) :=
  calc W7 m ρ c (Proc.devRef .tc main_v3)
    _ = W6 m ρ c (Proc.devRef .tc main_v3) := by stretch_keeps hostOps1_2
    _ = W5 m ρ c (Proc.devRef .tc main_v3) := by stretch_keeps hostOps1_1
    _ = W4 m ρ c (Proc.devRef .tc main_v3) := by stretch_keeps hostOps1
    _ = W3 m ρ c (Proc.devRef .tc main_v3) := W4_of_ne m ρ c main_v3 (by decide)

/-- The destination list likewise. -/
theorem W7_keeps_main_v6 (c : Dev nD) : W7 m ρ c (Proc.devRef .tc main_v6) = W3 m ρ c (Proc.devRef .tc main_v6) :=
  calc W7 m ρ c (Proc.devRef .tc main_v6)
    _ = W6 m ρ c (Proc.devRef .tc main_v6) := by stretch_keeps hostOps1_2
    _ = W5 m ρ c (Proc.devRef .tc main_v6) := by stretch_keeps hostOps1_1
    _ = W4 m ρ c (Proc.devRef .tc main_v6) := by stretch_keeps hostOps1
    _ = W3 m ρ c (Proc.devRef .tc main_v6) := W4_of_ne m ρ c main_v6 (by decide)

/-- The normalisation likewise. -/
theorem W7_keeps_main_v29 (c : Dev nD) : W7 m ρ c (Proc.devRef .tc main_v29) = W3 m ρ c (Proc.devRef .tc main_v29) :=
  calc W7 m ρ c (Proc.devRef .tc main_v29)
    _ = W6 m ρ c (Proc.devRef .tc main_v29) := by stretch_keeps hostOps1_2
    _ = W5 m ρ c (Proc.devRef .tc main_v29) := by stretch_keeps hostOps1_1
    _ = W4 m ρ c (Proc.devRef .tc main_v29) := by stretch_keeps hostOps1
    _ = W3 m ρ c (Proc.devRef .tc main_v29) := W4_of_ne m ρ c main_v29 (by decide)

/-- The second layer's bias likewise. -/
theorem W7_keeps_main_arg4 (c : Dev nD) : W7 m ρ c (Proc.devRef .tc main_arg4) = W3 m ρ c (Proc.devRef .tc main_arg4) :=
  calc W7 m ρ c (Proc.devRef .tc main_arg4)
    _ = W6 m ρ c (Proc.devRef .tc main_arg4) := by stretch_keeps hostOps1_2
    _ = W5 m ρ c (Proc.devRef .tc main_arg4) := by stretch_keeps hostOps1_1
    _ = W4 m ρ c (Proc.devRef .tc main_arg4) := by stretch_keeps hostOps1
    _ = W3 m ρ c (Proc.devRef .tc main_arg4) := W4_of_ne m ρ c main_arg4 (by decide)

/-- The permutation likewise. -/
theorem W7_keeps_main_arg6 (c : Dev nD) : W7 m ρ c (Proc.devRef .tc main_arg6) = W3 m ρ c (Proc.devRef .tc main_arg6) :=
  calc W7 m ρ c (Proc.devRef .tc main_arg6)
    _ = W6 m ρ c (Proc.devRef .tc main_arg6) := by stretch_keeps hostOps1_2
    _ = W5 m ρ c (Proc.devRef .tc main_arg6) := by stretch_keeps hostOps1_1
    _ = W4 m ρ c (Proc.devRef .tc main_arg6) := by stretch_keeps hostOps1
    _ = W3 m ρ c (Proc.devRef .tc main_arg6) := W4_of_ne m ρ c main_arg6 (by decide)

/-- The second layer's weight, when the third stretch reads it, is as the first product's entry found it. -/
theorem W6_keeps_main_arg3 (c : Dev nD) : W6 m ρ c (Proc.devRef .tc main_arg3) = W3 m ρ c (Proc.devRef .tc main_arg3) :=
  calc W6 m ρ c (Proc.devRef .tc main_arg3)
    _ = W5 m ρ c (Proc.devRef .tc main_arg3) := by stretch_keeps hostOps1_1
    _ = W4 m ρ c (Proc.devRef .tc main_arg3) := by stretch_keeps hostOps1
    _ = W3 m ρ c (Proc.devRef .tc main_arg3) := W4_of_ne m ρ c main_arg3 (by decide)

/-- The second product's weight operand: the folded weight of the second layer's weight argument. -/
theorem W7_w2c (c : Dev nD) :
    W7 m ρ c (Proc.devRef .tc main_v52)
      = Cert.Hand.Layout.w2c (F := F) (m ((c.tc : Thread nD τ).loc main_arg3)) := by
  rw [W7_w2c_of_W6, W6_keeps_main_arg3, W3_arg3]

end AnyInstance

/-! ## The hidden layer, at the instance of extended reals -/

section AtIdeal
variable (m : (ℓ : Loc nD τ sig) → Buf (Elt Ideal) ℓ) (ρ : Dev nD → PrngReg)

/-- On the reference's source list, destination list and normalisation, the kernel's operations are the reference's
    first layer after its product: the same operations in the same order; widening is the identity on extended reals. -/
theorem clamp0_pre1_eq_layer1 (X : (⟨S100000x128, .bf16⟩ : BufTy).Contents (Elt Ideal))
    (x2 : (⟨S128, .f32⟩ : BufTy).Contents (Elt Ideal)) (x5 : (⟨S2x1600000, .i32⟩ : BufTy).Contents (Elt Ideal)) :
    clamp0 (F := Ideal) (pre1 (F := Ideal) X (Cert.ReferenceIdeal.Read.val_main_v3 (F := Ideal) x5)
        (Cert.ReferenceIdeal.Read.val_main_v6 (F := Ideal) x5) (Cert.ReferenceIdeal.Read.val_main_v30 (F := Ideal) x5) x2)
      = Cert.Hand.Tails.layer1 (F := Ideal) X x2 x5 := rfl

/-- The hidden layer: the first layer's operations after its product, applied to the first product's output array
    (whatever it holds), the bias and the edge list. -/
theorem W7_hidden (c : Dev nD) :
    W7 m ρ c (Proc.devRef .tc main_v48)
      = Cert.Hand.Tails.layer1 (F := Ideal) (W4 m ρ c (Proc.devRef .tc main_v30))
          (m ((c.tc : Thread nD τ).loc main_arg2)) (m ((c.tc : Thread nD τ).loc main_arg5)) := by
  have h7 : W7 m ρ c (Proc.devRef .tc main_v48) = W6 m ρ c (Proc.devRef .tc main_v48) := by stretch_keeps hostOps1_2
  rw [h7, W6_hidden, W5_pre, W4_of_ne m ρ c main_v3 (by decide), W4_of_ne m ρ c main_v6 (by decide),
    W4_of_ne m ρ c main_v29 (by decide), W4_of_ne m ρ c main_arg2 (by decide), W3_src, W3_dst, W3_norm, W3_arg2]
  exact clamp0_pre1_eq_layer1 _ _ _

end AtIdeal

end Cert.KernelIdeal.Hand1

end
-- ==== Proof.KernelKeeps.lean ====
/-
  Buffers that outlive the matrix products. The source and destination node of every edge, the edge normalisation
  and the argument arrays are written before the first product and only read afterwards: at the first product's exit,
  and at the second product's exit, each still holds what it held at the first product's entry.
-/
import proofs.«115430_j29643864277064_2_alg».proof.Proof.KernelHost0

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg)

/-! ## Across the first product -/

/-- The first matrix product does not write `main_v3`. -/
theorem W4_back_main_v3 (c : Dev nD) : W4 m ρ c (Proc.devRef .tc main_v3) = W3 m ρ c (Proc.devRef .tc main_v3) :=
  W4_of_ne m ρ c main_v3 (by decide)

/-- The first matrix product does not write `main_v6`. -/
theorem W4_back_main_v6 (c : Dev nD) : W4 m ρ c (Proc.devRef .tc main_v6) = W3 m ρ c (Proc.devRef .tc main_v6) :=
  W4_of_ne m ρ c main_v6 (by decide)

/-- The first matrix product does not write `main_v29`. -/
theorem W4_back_main_v29 (c : Dev nD) : W4 m ρ c (Proc.devRef .tc main_v29) = W3 m ρ c (Proc.devRef .tc main_v29) :=
  W4_of_ne m ρ c main_v29 (by decide)

/-- The first matrix product does not write `main_arg2`. -/
theorem W4_back_main_arg2 (c : Dev nD) : W4 m ρ c (Proc.devRef .tc main_arg2) = W3 m ρ c (Proc.devRef .tc main_arg2) :=
  W4_of_ne m ρ c main_arg2 (by decide)

/-- The first matrix product does not write `main_arg3`. -/
theorem W4_back_main_arg3 (c : Dev nD) : W4 m ρ c (Proc.devRef .tc main_arg3) = W3 m ρ c (Proc.devRef .tc main_arg3) :=
  W4_of_ne m ρ c main_arg3 (by decide)

/-! ## Across both products and the operations between them -/

/-- Neither matrix product and no host operation between them writes `main_v3`. -/
theorem W8_back_main_v3 (c : Dev nD) : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by stretch_keeps hostOps1_2
    _ = W5 m ρ c (Proc.devRef .tc main_v3) := by stretch_keeps hostOps1_1
    _ = W4 m ρ c (Proc.devRef .tc main_v3) := by stretch_keeps hostOps1
    _ = W3 m ρ c (Proc.devRef .tc main_v3) := W4_of_ne m ρ c main_v3 (by decide)

/-- Neither matrix product and no host operation between them writes `main_v6`. -/
theorem W8_back_main_v6 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by stretch_keeps hostOps1_2
    _ = W5 m ρ c (Proc.devRef .tc main_v6) := by stretch_keeps hostOps1_1
    _ = W4 m ρ c (Proc.devRef .tc main_v6) := by stretch_keeps hostOps1
    _ = W3 m ρ c (Proc.devRef .tc main_v6) := W4_of_ne m ρ c main_v6 (by decide)

/-- Neither matrix product and no host operation between them writes `main_v29`. -/
theorem W8_back_main_v29 (c : Dev nD) : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := by stretch_keeps hostOps1_2
    _ = W5 m ρ c (Proc.devRef .tc main_v29) := by stretch_keeps hostOps1_1
    _ = W4 m ρ c (Proc.devRef .tc main_v29) := by stretch_keeps hostOps1
    _ = W3 m ρ c (Proc.devRef .tc main_v29) := W4_of_ne m ρ c main_v29 (by decide)

/-- Neither matrix product and no host operation between them writes `main_arg4`. -/
theorem W8_back_main_arg4 (c : Dev nD) : W8 m ρ c (Proc.devRef .tc main_arg4) = W3 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := by stretch_keeps hostOps1_2
    _ = W5 m ρ c (Proc.devRef .tc main_arg4) := by stretch_keeps hostOps1_1
    _ = W4 m ρ c (Proc.devRef .tc main_arg4) := by stretch_keeps hostOps1
    _ = W3 m ρ c (Proc.devRef .tc main_arg4) := W4_of_ne m ρ c main_arg4 (by decide)

/-- Neither matrix product and no host operation between them writes `main_arg6`. -/
theorem W8_back_main_arg6 (c : Dev nD) : W8 m ρ c (Proc.devRef .tc main_arg6) = W3 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := by stretch_keeps hostOps1_2
    _ = W5 m ρ c (Proc.devRef .tc main_arg6) := by stretch_keeps hostOps1_1
    _ = W4 m ρ c (Proc.devRef .tc main_arg6) := by stretch_keeps hostOps1
    _ = W3 m ρ c (Proc.devRef .tc main_arg6) := W4_of_ne m ρ c main_arg6 (by decide)

end Cert.KernelIdeal.Hand

end
-- ==== Proof.Layer2Reads.lean ====
/-
  The two gathers of the second layer, read at an index.

  Both programs take the permutation entry of a row, move a negative entry up by the number of rows, and gather with
  it; a gather clamps each start index so that its slice fits the operand. The reference gathers whole rows of `h`; the
  kernel gathers the right half (columns 64 … 127) of the rows of its product, giving the column start 64 as a second
  start component. Read at an index, both read the SAME row — `row p i` below — which is what lets the two results be
  compared row by row.

  The two shapes of gather are read once over variable extents (the operand index the library defines, unfolded axis by
  axis) and then instantiated at the programs' literal shapes, so that nothing is ever computed over the 100000 rows.
-/
import proofs.«115430_j29643864277064_2_alg».proof.KernelIdeal
import proofs.«115430_j29643864277064_2_alg».proof.Proof.RefRead
import Idealize.ShloMosaic.Lib.ValueIdx
import Idealize.ShloMosaic.Lib.Pipeline.Value
import Idealize.ShloMosaic.Lib.ValueLayout

noncomputable section

namespace Cert.Hand.Layer2

open Idealize.ShloMosaic Idealize.ShloMosaic.ValueIdx

/-! ## A gather out of a rank-2 operand, read at an index -/

section Gather
variable {α : Type}

/-- The axes of a rank-2 shape but the first: the second alone. -/
theorem kept_zero_two {s : Shape} (hr : s.rank = 2) (l : List (Fin s.rank)) (hl : l = [⟨0, by omega⟩]) :
    s.kept l = [⟨1, by omega⟩] := by
  obtain ⟨r, sz⟩ := s
  simp only at hr
  subst hr
  subst hl
  show (List.finRange 2).filter (fun a => a ∉ ([⟨0, by omega⟩] : List (Fin 2))) = [⟨1, by omega⟩]
  decide

/-- Looking up a singleton list's element in another singleton list's position gives that list's element. -/
theorem getElem_idxOf_singleton {A B : Type} [DecidableEq A] (a : A) (b : B) (l : List A) (m : List B)
    (hl : l = [a]) (hm : m = [b]) (h : List.idxOf a l < m.length) : m[List.idxOf a l] = b := by
  subst hl; subst hm; simp

/-- In a gather out of a rank-2 operand whose rows are collapsed and whose one offset axis is the result's second, the
    offset coordinate on the operand's second axis is the result index's second coordinate. -/
theorem offCoord_one {s si t : Shape} (d : GatherDims s si t) (hs : s.rank = 2) (ht : t.rank = 2)
    (hc : d.collapsedSliceDims = [⟨0, by omega⟩]) (hb : d.operandBatchingDims = [])
    (ho : d.offsetDims = [⟨1, by omega⟩]) (j : t.Idx) :
    d.offCoord j ⟨1, by omega⟩ = (j ⟨1, by omega⟩).val := by
  have hk : d.sKept = [⟨1, by omega⟩] := by
    show s.kept (d.collapsedSliceDims ++ d.operandBatchingDims) = _
    rw [hb, List.append_nil]
    exact kept_zero_two hs _ hc
  unfold GatherDims.offCoord
  rw [dif_pos (by rw [hk]; exact List.mem_singleton.mpr rfl)]
  exact congrArg (fun z => (j z).val) (getElem_idxOf_singleton _ _ _ _ hk ho _)

/-- The dimension numbers of a gather of whole rows: operand `[N, C]`, start indices `[M, 1]` (one row number per
    result row), result `[M, C]`. -/
abbrev rowDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A gather of whole rows read at `(i, k)`: the operand's row is the start index `idx[i, 0]` read as a signed integer
    and clamped into `[0, N − 1]`, the column is `k`. -/
theorem gather_row_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (i : Fin M) (k : Fin C) :
    Host.gather (rowDims N M C wf) x idx (ix2 i k)
      = x (ix2 (⟨min (idx (ix2 i (0 : Fin 1))).toInt.toNat (N - 1), by omega⟩ : Fin N) k) := by
  unfold Host.gather
  congr 1
  funext a
  refine Fin.ext ?_
  match a with
  | ⟨0, _⟩ =>
    show (rowDims N M C wf).start (ix2 i k) idx 0 + (rowDims N M C wf).batchCoord (ix2 i k) 0
      + (rowDims N M C wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 i k) ⟨List.idxOf (0 : Fin 2) (rowDims N M C wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims N M C wf).start (ix2 i k) idx 1 + (rowDims N M C wf).batchCoord (ix2 i k) 1
      + (rowDims N M C wf).offCoord (ix2 i k) 1 = k.val
    rw [GatherDims.batchCoord_eq_zero _ _ _ List.not_mem_nil]
    unfold GatherDims.start
    rw [dif_neg (show ¬ (1 : Fin 2) ∈ ([0] : List (Fin 2)) by decide)]
    have h1 : (rowDims N M C wf).offCoord (ix2 i k) 1 = k.val :=
      offCoord_one (rowDims N M C wf) rfl rfl rfl rfl rfl (ix2 i k)
    rw [h1, Nat.zero_add]

/-- The dimension numbers of a gather of a window of columns out of a row: operand `[N, C]`, start indices `[M, 2]`
    (a row number and a first column per result row), result `[M, K]`. -/
abbrev rowColDims (N M C K : Nat)
    (wf : GatherDims.WF ⟨2, ![N, C]⟩ ⟨2, ![M, 2]⟩ ⟨2, ![M, K]⟩ [1] [0] [] [0, 1] [] 1 ![1, K]) :
    GatherDims ⟨2, ![N, C]⟩ ⟨2, ![M, 2]⟩ ⟨2, ![M, K]⟩ where
  offsetDims := [1]
  collapsedSliceDims := [0]
  operandBatchingDims := []
  startIndicesBatchingDims := []
  startIndexMap := [0, 1]
  indexVectorDim := 1
  sliceSizes := ![1, K]
  wf := wf

/-- That gather read at `(i, k)`: the row is `idx[i, 0]` read signed and clamped into `[0, N − 1]`; the column is
    `idx[i, 1]` read signed and clamped into `[0, C − K]` (so that the window of `K` columns fits), plus `k`. -/
theorem gather_rowCol_apply {N M C K w : Nat} (hN : 0 < N) (hK : K ≤ C)
    (wf : GatherDims.WF ⟨2, ![N, C]⟩ ⟨2, ![M, 2]⟩ ⟨2, ![M, K]⟩ [1] [0] [] [0, 1] [] 1 ![1, K])
    (x : (⟨2, ![N, C]⟩ : Shape).Idx → α) (idx : IVec ⟨2, ![M, 2]⟩ w) (i : Fin M) (k : Fin K) :
    Host.gather (rowColDims N M C K wf) x idx (ix2 i k)
      = x (ix2 (⟨min (idx (ix2 i (0 : Fin 2))).toInt.toNat (N - 1), by omega⟩ : Fin N)
            (⟨min (idx (ix2 i (1 : Fin 2))).toInt.toNat (C - K) + k.val, by have := k.isLt; omega⟩ : Fin C)) := by
  unfold Host.gather
  congr 1
  funext a
  refine Fin.ext ?_
  match a with
  | ⟨0, _⟩ =>
    show (rowColDims N M C K wf).start (ix2 i k) idx 0 + (rowColDims N M C K wf).batchCoord (ix2 i k) 0
      + (rowColDims N M C K wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0, 1] : List (Fin 2)) by decide)]
    have hsi : (rowColDims N M C K wf).siIdx (ix2 i k) ⟨List.idxOf (0 : Fin 2) (rowColDims N M C K wf).startIndexMap,
        List.idxOf_lt_length_iff.2 (show (0 : Fin 2) ∈ ([0, 1] : List (Fin 2)) by decide)⟩ = ix2 i (0 : Fin 2) := by
      funext b; refine Fin.ext ?_
      match b with
      | ⟨0, _⟩ => rfl
      | ⟨1, _⟩ => rfl
    rw [hsi]
    rfl
  | ⟨1, _⟩ =>
    show (rowColDims N M C K wf).start (ix2 i k) idx 1 + (rowColDims N M C K wf).batchCoord (ix2 i k) 1
      + (rowColDims N M C K wf).offCoord (ix2 i k) 1 = _
    rw [GatherDims.batchCoord_eq_zero _ _ _ List.not_mem_nil]
    simp only [Nat.add_zero]
    unfold GatherDims.start
    rw [dif_pos (show (1 : Fin 2) ∈ ([0, 1] : List (Fin 2)) by decide)]
    have hsi : (rowColDims N M C K wf).siIdx (ix2 i k) ⟨List.idxOf (1 : Fin 2) (rowColDims N M C K wf).startIndexMap,
        List.idxOf_lt_length_iff.2 (show (1 : Fin 2) ∈ ([0, 1] : List (Fin 2)) by decide)⟩ = ix2 i (1 : Fin 2) := by
      funext b; refine Fin.ext ?_
      match b with
      | ⟨0, _⟩ => rfl
      | ⟨1, _⟩ => rfl
    rw [hsi]
    have h1 : (rowColDims N M C K wf).offCoord (ix2 i k) 1 = k.val :=
      offCoord_one (rowColDims N M C K wf) rfl rfl rfl rfl rfl (ix2 i k)
    rw [h1]
    rfl

end Gather

/-! ## The row a permutation entry selects -/

/-- What both programs do to a permutation entry before they gather with it: a negative entry is moved up by the number
    of rows (the wrap of a negative index), any other entry is kept. -/
def wrap (v : BitVec 32) : BitVec 32 := Scalar.select (IntOp.cmpi .slt v 0#32) (IntOp.addi v 100000#32) v

/-- The row entry `i` of the permutation selects: the wrapped entry read as a signed integer and clamped into
    `[0, 99999]`, as the gather clamps a start index so that its slice of one row fits. -/
def row (p : (⟨1, ![100000]⟩ : Shape).Idx → BitVec 32) (i : Fin 100000) : Fin 100000 :=
  ⟨min (wrap (p (ix1 i))).toInt.toNat 99999, by omega⟩

/-! ## The kernel's gather of the right halves -/

section Kernel
open Cert.KernelIdeal Cert.KernelIdeal.Facts₀
variable [Cert.KernelIdeal.Facts₀]

/-- The start indices of the kernel's gather as the program builds them: per row the wrapped permutation entry and
    the constant first column 64, side by side. -/
def idx63 (p : IVec S100000 32) : IVec S100000x2 32 :=
  concatenate S100000x2 1
    [⟨S100000x1, broadcastInDim S100000x1 ![0] bcast_S100000_S100000x1_0
        (select (cmpi .slt p (broadcastInDim S100000 ![] bcast_S_S100000 (constantI S_ 32 0#32)))
          (addi p (broadcastInDim S100000 ![] bcast_S_S100000 (constantI S_ 32 100000#32))) p)⟩,
     ⟨S100000x1, broadcastInDim S100000x1 ![] bcast_S_S100000x1 (constantI S_ 32 64#32)⟩]
    concatenates_S100000x1_S100000x1_S100000x2_d1

/-- Its first component at row `i` is the wrapped permutation entry. -/
theorem idx63_row (p : IVec S100000 32) (i : Fin 100000) : idx63 p (ix2 i (0 : Fin 2)) = wrap (p (ix1 i)) := by
  unfold idx63
  refine (concatenate_pair_apply_left (t := S100000x2) (s₁ := S100000x1) (s₂ := S100000x1) (1 : Fin 2) _ _
    concatenates_S100000x1_S100000x1_S100000x2_d1 (ix2 i (0 : Fin 2)) rfl (ix2 i (0 : Fin 1)) (fun b => by
      match b with
      | ⟨0, _⟩ => rfl
      | ⟨1, _⟩ => rfl)).trans ?_
  refine (broadcastInDim_apply _ bcast_S100000_S100000x1_0 _ (ix2 i (0 : Fin 1)) (ix1 i) (fun a => by
      match a with
      | ⟨0, _⟩ => show i.val = if (100000 : Nat) = 1 then 0 else i.val; rw [if_neg (by decide)])).trans ?_
  show Scalar.select (IntOp.cmpi .slt (p (ix1 i)) (broadcastInDim S100000 ![] bcast_S_S100000 (constantI S_ 32 0#32) (ix1 i)))
      (IntOp.addi (p (ix1 i)) (broadcastInDim S100000 ![] bcast_S_S100000 (constantI S_ 32 100000#32) (ix1 i))) (p (ix1 i)) = _
  rw [broadcastInDim_apply _ bcast_S_S100000 (constantI S_ 32 0#32) (ix1 i) ix0 (fun a => a.elim0),
    broadcastInDim_apply _ bcast_S_S100000 (constantI S_ 32 100000#32) (ix1 i) ix0 (fun a => a.elim0)]
  rfl

/-- Its second component is the constant 64 at every row. -/
theorem idx63_col (p : IVec S100000 32) (i : Fin 100000) : idx63 p (ix2 i (1 : Fin 2)) = 64#32 := by
  unfold idx63
  refine (concatenate_pair_apply_right (t := S100000x2) (s₁ := S100000x1) (s₂ := S100000x1) (1 : Fin 2) _ _
    concatenates_S100000x1_S100000x1_S100000x2_d1 (ix2 i (1 : Fin 2)) rfl rfl (ix2 i (0 : Fin 1))
    (fun b hb => by
      match b with
      | ⟨0, _⟩ => rfl
      | ⟨1, _⟩ => exact absurd rfl hb)
    rfl).trans ?_
  exact broadcastInDim_apply _ bcast_S_S100000x1 (constantI S_ 32 64#32) (ix2 i (0 : Fin 1)) ix0 (fun a => a.elim0)

/-- THE KERNEL'S GATHER READ AT `(i, j)`: column `64 + j` of the row the permutation entry `i` selects. The first
    column 64 is its own clamp: a window of 64 columns out of 128 starts at 64 at the latest. -/
theorem kernel_gather_apply {α : Type} (Y : S100000x128.Idx → α) (p : IVec S100000 32) (i : Fin 100000) (j : Fin 64) :
    Host.gather gather_S100000x128_S100000x2_S100000x64_1_0_n_n_01_1_164 Y (idx63 p) (ix2 i j)
      = Y (ix2 (row p i) (⟨64 + j.val, by omega⟩ : Fin 128)) := by
  have h := gather_rowCol_apply (N := 100000) (M := 100000) (C := 128) (K := 64) (by omega) (by omega)
    gather_S100000x128_S100000x2_S100000x64_1_0_n_n_01_1_164_wf Y (idx63 p) i j
  refine h.trans (congrArg Y ?_)
  funext a
  match a with
  | ⟨0, _⟩ =>
    refine Fin.ext ?_
    show min (idx63 p (ix2 i (0 : Fin 2))).toInt.toNat (100000 - 1) = min (wrap (p (ix1 i))).toInt.toNat 99999
    rw [idx63_row]
  | ⟨1, _⟩ =>
    refine Fin.ext ?_
    show min (idx63 p (ix2 i (1 : Fin 2))).toInt.toNat (128 - 64) + j.val = 64 + j.val
    rw [idx63_col]
    rfl

end Kernel

/-! ## The reference's gather of whole rows -/

section Reference
open Cert.ReferenceIdeal Cert.ReferenceIdeal.Facts₀
variable {F : FTy → Type} [FloatOps F]

/-- The reference's start indices at row `i`: the wrapped permutation entry. -/
theorem v53_row (p : IVec S100000 32) (i : Fin 100000) :
    Cert.ReferenceIdeal.Read.val_main_v53 (F := F) p (ix2 i (0 : Fin 1)) = wrap (p (ix1 i)) := by
  have hi : Cert.ReferenceIdeal.Read.idx_main_v53 (ix2 i (0 : Fin 1)) = ix1 i := by
    funext a; match a with | ⟨0, _⟩ => rfl
  rw [Cert.ReferenceIdeal.Read.val_main_v53_apply, hi, Cert.ReferenceIdeal.Read.val_main_v52_apply,
    Cert.ReferenceIdeal.Read.val_main_v49_apply, Cert.ReferenceIdeal.Read.val_main_v51_apply,
    Cert.ReferenceIdeal.Read.val_main_v48_apply, Cert.ReferenceIdeal.Read.val_main_v50_apply,
    Cert.ReferenceIdeal.Read.val_main_c_9_apply, Cert.ReferenceIdeal.Read.val_main_c_10_apply]
  rfl

/-- THE REFERENCE'S GATHER READ AT `(i, k)`: column `k` of the row the permutation entry `i` selects. -/
theorem ref_gather_apply {α : Type} (H : S100000x128.Idx → α) (p : IVec S100000 32) (i : Fin 100000) (k : Fin 128) :
    Host.gather gather_S100000x128_S100000x1_S100000x128_1_0_n_n_0_1_1128 H
        (Cert.ReferenceIdeal.Read.val_main_v53 (F := F) p) (ix2 i k)
      = H (ix2 (row p i) k) := by
  have h := gather_row_apply (N := 100000) (M := 100000) (C := 128) (by omega)
    gather_S100000x128_S100000x1_S100000x128_1_0_n_n_0_1_1128_wf H (Cert.ReferenceIdeal.Read.val_main_v53 (F := F) p) i k
  refine h.trans (congrArg H ?_)
  funext a
  match a with
  | ⟨0, _⟩ =>
    refine Fin.ext ?_
    show min (Cert.ReferenceIdeal.Read.val_main_v53 (F := F) p (ix2 i (0 : Fin 1))).toInt.toNat (100000 - 1)
      = min (wrap (p (ix1 i))).toInt.toNat 99999
    rw [v53_row]
  | ⟨1, _⟩ => rfl

end Reference

end Cert.Hand.Layer2

end
-- ==== Proof.KernelHost2.lean ====
/-
  The idealized kernel's host operations after its second matrix product, read back at the ideal instance.

  From the product's output array `Y` (one row of 128 per node) the kernel takes the first 64 columns of row `i` and
  adds the last 64 columns of the row the permutation sends `i` to; this sum is rounded (the identity on the
  extended reals), gathered along the edges, scaled by each edge's normalisation, summed per destination node, and the
  bias is added. Over the extended reals a change of format is the identity, so these operations are the reference's
  second-layer tail applied to the sum, as soon as the kernel's source, destination and normalisation buffers are
  the reference's stages of the same edge list: the reference computes the normalisation a second time, by the
  same operations on the same edge list.
-/
import proofs.«115430_j29643864277064_2_alg».proof.Proof.KernelHost0
import proofs.«115430_j29643864277064_2_alg».proof.Proof.Tails
import proofs.«115430_j29643864277064_2_alg».proof.Proof.Layer2Reads

set_option maxRecDepth 16384

noncomputable section

namespace Cert.KernelIdeal.Hand2

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-- Reads each remaining operation's result by rewriting: at its own result buffer an operation's function of its
    operands' contents, at any other buffer what was there before. Rewriting reaches the pieces of a concatenation,
    which one simplifier pass leaves as they are. -/
macro "results_rw" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

/-- What the second product's output contributes to a node: the first 64 columns of its own row plus the last 64
    columns of the row its permutation entry names. -/
def mix2 (Y : (⟨S100000x128, .bf16⟩ : BufTy).Contents (Elt Ideal)) (p : (⟨S100000, .i32⟩ : BufTy).Contents (Elt Ideal)) :
    (⟨S100000x64, .f32⟩ : BufTy).Contents (Elt Ideal) :=
  addf (F := Ideal) (φ := .f32) (extractStridedSlice S100000x64 ![0, 0] Y slices_S100000x128_S100000x64_0_0)
    (Host.gather gather_S100000x128_S100000x2_S100000x64_1_0_n_n_01_1_164 Y (Cert.Hand.Layer2.idx63 p))

/-- The kernel's operations after its second product, as one function of the product's output `Y`, the permutation
    `p`, the edges' source and destination nodes, their normalisation and the second bias: the mixed rows
    (`mix2`, with the format changes the program prints), gathered along the edges (a negative source index
    wrapped), scaled, summed into the destination nodes from zero, the bias added. -/
def tail2 (Y : (⟨S100000x128, .bf16⟩ : BufTy).Contents (Elt Ideal)) (p : (⟨S100000, .i32⟩ : BufTy).Contents (Elt Ideal))
    (src dst : (⟨S1700000, .i32⟩ : BufTy).Contents (Elt Ideal)) (norm : (⟨S1700000, .f32⟩ : BufTy).Contents (Elt Ideal))
    (b2 : (⟨S64, .f32⟩ : BufTy).Contents (Elt Ideal)) : (⟨S100000x64, .f32⟩ : BufTy).Contents (Elt Ideal) :=
  addf
    (Host.scatterAdd scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 dst)
      (mulf
        (extf .f32
          (Host.gather gather_S100000x64_S1700000x1_S1700000x64_1_0_n_n_0_1_164
            (truncf .bf16
              (addf
                (extf .f32 (extractStridedSlice S100000x64 ![0, 0] Y slices_S100000x128_S100000x64_0_0) bitsLt_bf16_f32)
                (extf .f32
                  (Host.gather gather_S100000x128_S100000x2_S100000x64_1_0_n_n_01_1_164 Y (Cert.Hand.Layer2.idx63 p))
                  bitsLt_bf16_f32))
              bitsLt_bf16_f32)
            (broadcastInDim S1700000x1 ![0] bcast_S1700000_S1700000x1_0
              (select (cmpi .slt src (broadcastInDim S1700000 ![] bcast_S_S1700000 (constantI S_ 32 0#32)))
                (addi src (broadcastInDim S1700000 ![] bcast_S_S1700000 (constantI S_ 32 100000#32))) src)))
          bitsLt_bf16_f32)
        (broadcastInDim S1700000x64 ![0, 1] bcast_S1700000x1_S1700000x64_0_1
          (broadcastInDim S1700000x1 ![0] bcast_S1700000_S1700000x1_0 norm))))
    (broadcastInDim S100000x64 ![0, 1] bcast_S1x64_S100000x64_0_1 (broadcastInDim S1x64 ![1] bcast_S64_S1x64_1 b2))

set_option maxHeartbeats 4000000 in
/-- The result buffer at the end of the program is `tail2` of six buffers at the second product's exit: the
    product's output array, the permutation, the edges' sources, destinations and normalisation, the second bias. -/
theorem W9_raw (c : Dev nD) :
    W9 m ρ c (Proc.devRef .tc main_v84)
      = tail2 (W8 m ρ c (Proc.devRef .tc main_v53)) (W8 m ρ c (Proc.devRef .tc main_arg6))
          (W8 m ρ c (Proc.devRef .tc main_v3)) (W8 m ρ c (Proc.devRef .tc main_v6))
          (W8 m ρ c (Proc.devRef .tc main_v29)) (W8 m ρ c (Proc.devRef .tc main_arg4)) := by
  dsimp only [W9, hostOps2]
  after_results_simp
  results_rw
  rfl

/-- On the reference's stages of an edge list `x5` — its sources, destinations and (first) normalisation — the
    kernel's tail is the reference's second-layer tail of the mixed rows: a change of format is the identity, and the
    reference's second normalisation is the first one computed again. -/
theorem tail2_eq_layer2 (Y : (⟨S100000x128, .bf16⟩ : BufTy).Contents (Elt Ideal))
    (p : (⟨S100000, .i32⟩ : BufTy).Contents (Elt Ideal)) (x4 : (⟨S64, .f32⟩ : BufTy).Contents (Elt Ideal))
    (x5 : (⟨S2x1600000, .i32⟩ : BufTy).Contents (Elt Ideal)) :
    tail2 Y p (Cert.ReferenceIdeal.Read.val_main_v3 (F := Ideal) x5) (Cert.ReferenceIdeal.Read.val_main_v6 (F := Ideal) x5)
        (Cert.ReferenceIdeal.Read.val_main_v30 (F := Ideal) x5) x4
      = Cert.Hand.Tails.layer2 (F := Ideal) (mix2 Y p) x4 x5 := rfl

/-- The result buffer at the end of the program is the reference's second-layer tail of the mixed rows, once the
    three edge buffers at the second product's exit are known to be the reference's stages of an edge list. -/
theorem W9_result (c : Dev nD) (x5 : (⟨S2x1600000, .i32⟩ : BufTy).Contents (Elt Ideal))
    (hsrc : W8 m ρ c (Proc.devRef .tc main_v3) = Cert.ReferenceIdeal.Read.val_main_v3 (F := Ideal) x5)
    (hdst : W8 m ρ c (Proc.devRef .tc main_v6) = Cert.ReferenceIdeal.Read.val_main_v6 (F := Ideal) x5)
    (hnorm : W8 m ρ c (Proc.devRef .tc main_v29) = Cert.ReferenceIdeal.Read.val_main_v30 (F := Ideal) x5) :
    W9 m ρ c (Proc.devRef .tc main_v84)
      = Cert.Hand.Tails.layer2 (F := Ideal)
          (mix2 (W8 m ρ c (Proc.devRef .tc main_v53)) (W8 m ρ c (Proc.devRef .tc main_arg6)))
          (W8 m ρ c (Proc.devRef .tc main_arg4)) x5 := by
  rw [W9_raw, hsrc, hdst, hnorm, tail2_eq_layer2]

end Cert.KernelIdeal.Hand2

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.RegionArrays.lean ====
/-
  The program's first matrix-product region, read as ONE whole-array product.

  The region runs its body over a grid of ten points: point t stages rows 10000·t … 10000·t + 9999 of the left operand
  (100000 × 256) and the whole right operand (256 × 128), forms their product into a zero accumulator and writes it
  back as rows 10000·t … 10000·t + 9999 of the result (100000 × 128). Over the extended reals a change of float format
  is the identity and the product into the zero accumulator is the plain sum over the shared axis, so what point t
  writes back is block t of the single array  i ↦ ∑ k, left (i₀, k) · right (k, i₁)  of the operands as the region
  finds them. Row r of the result lies in block r / 10000, so the ten blocks cover the array and the result IS that
  array.
-/
import proofs.«115430_j29643864277064_2_alg».proof.Proof.Gen.KernelIdeal.Frame
import proofs.«115430_j29643864277064_2_alg».proof.Proof.LibPlainMatmul
import Idealize.ShloMosaic.Lib.ValueIdx
import Idealize.ShloMosaic.Lib.Pipeline.Value
import Idealize.ShloMosaic.PureOps.Ideal.Laws

noncomputable section

namespace Cert.KernelIdeal.Regions

open Cert.KernelIdeal Cert.KernelIdeal.Gen Idealize.ShloMosaic Idealize.ShloMosaic.TcCoe Idealize.SL.Sem
open Idealize.ShloMosaic.ValueIdx Cert.LibPlainMatmul
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## A [100000, 256] by [256, 128] product in ten row blocks -/

/-- The body's value at (p, q): both format changes are the identity, and the product into the zero accumulator is the
    sum over the shared axis of row p of the left block against column q of the right operand. -/
theorem pay0_apply (x0 : Vec Ideal S10000x256 .f32) (x1 : Vec Ideal S256x128 .f32) (p : Fin 10000) (q : Fin 128) :
    Gen.k0_pay1 x0 x1 (ix2 p q) = ∑ k : Fin 256, x0 (ix2 p k) * x1 (ix2 k q) := by
  unfold Gen.k0_pay1
  exact matmul_zero_plain _ _ _ p q

/-- The block indices over the grid: the left operand's and the result's blocks move down the rows with the point, the
    right operand's block is the whole operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 10000·t … of the operand. -/
theorem lblk0_apply (c : Dev nD) (t : Fin cfg0.N) (y : S10000x256.Idx) (i : S100000x256.Idx)
    (h0 : (i 0).val = t.val * 10000 + (y 0).val) (h1 : (i 1).val = (y 1).val) :
    (Gen.iblk0 V c 0 t : Vec Ideal S10000x256 .f32) y = (V c (Pipeline.arrRef spec0 0) : S100000x256.Idx → EReal) i := by
  obtain ⟨e0, e1, -⟩ := idx_facts0 t
  unfold Gen.iblk0
  rw [View.read_apply]
  show (V c (Pipeline.arrRef spec0 0) : S100000x256.Idx → EReal) _ = _
  refine congrArg (V c (Pipeline.arrRef spec0 0) : S100000x256.Idx → EReal) ?_
  funext a
  apply Fin.ext
  match a with
  | ⟨0, _⟩ => show win0_0.index t (0 : Fin 2) * 10000 + 1 * (y 0).val = (i 0).val; omega
  | ⟨1, _⟩ => show win0_0.index t (1 : Fin 2) * 256 + 1 * (y 1).val = (i 1).val; omega

/-- The right operand's block at every point is the operand. -/
theorem rblk0_apply (c : Dev nD) (t : Fin cfg0.N) (y : S256x128.Idx) :
    (Gen.iblk0 V c 1 t : Vec Ideal S256x128 .f32) y = (V c (Pipeline.arrRef spec0 1) : S256x128.Idx → EReal) y := by
  obtain ⟨-, -, e0, e1, -⟩ := idx_facts0 t
  unfold Gen.iblk0
  rw [View.read_apply]
  show (V c (Pipeline.arrRef spec0 1) : S256x128.Idx → EReal) _ = _
  refine congrArg (V c (Pipeline.arrRef spec0 1) : S256x128.Idx → EReal) ?_
  funext a
  apply Fin.ext
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The product of a [100000, 256] array and a [256, 128] array, entry by entry. -/
abbrev prod0 (A : S100000x256.Idx → EReal) (B : S256x128.Idx → EReal) : S100000x128.Idx → EReal := fun i =>
  ∑ k : Fin 256, A (ix2 (n0 := 100000) (i 0) k) * B (ix2 (n1 := 128) k (i 1))

/-- The whole-array product of the two operands as the region finds them. -/
abbrev arr0 (c : Dev nD) : S100000x128.Idx → EReal :=
  prod0 (V c (Pipeline.arrRef spec0 0)) (V c (Pipeline.arrRef spec0 1))

/-- The body's value on the blocks of point t, at an element of the block, is the whole-array product at that element's
    place in the array. -/
theorem body0_apply (c : Dev nD) (t : Fin cfg0.N) (p : Fin 10000) (q : Fin 128) :
    Gen.k0_pay1 (Gen.iblk0 V c 0 t) (Gen.iblk0 V c 1 t) (ix2 p q) = arr0 V c (((cfg0.win 2).blk t).view.emb (ix2 p q)) := by
  obtain ⟨-, -, -, -, e0, e1⟩ := idx_facts0 t
  refine (pay0_apply _ _ p q).trans ?_
  show (∑ k : Fin 256, _) = ∑ k : Fin 256, _
  refine Finset.sum_congr rfl fun k _ => ?_
  have hl := lblk0_apply V c t (ix2 p k) (ix2 (n0 := 100000) ((((cfg0.win 2).blk t).view.emb (ix2 p q) : S100000x128.Idx) 0) k)
    (by show win0_2.index t (0 : Fin 2) * 10000 + 1 * p.val = t.val * 10000 + p.val; omega) rfl
  have hr := rblk0_apply V c t (ix2 k q)
  have hq : (ix2 k q : S256x128.Idx) = ix2 (n1 := 128) k ((((cfg0.win 2).blk t).view.emb (ix2 p q) : S100000x128.Idx) 1) := by
    funext a
    apply Fin.ext
    match a with
    | ⟨0, _⟩ => rfl
    | ⟨1, _⟩ => show q.val = win0_2.index t (1 : Fin 2) * 128 + 1 * q.val; omega
  rw [hl, hr, hq]

/-- What point t writes back is block t of the whole-array product. -/
theorem flushed0_eq (c : Dev nD) (t : Fin cfg0.N) :
    (Gen.dat0 (F := Ideal) V c).flushed 2 t = ((cfg0.win 2).blk t).view.read (Elt Ideal) (arr0 V c) := by
  show (cfg0.win 2).cut (grid0.coords t) ((Gen.dat0 (F := Ideal) V c).after 2 t) = _
  rw [Gen.after0_2]
  unfold Gen.out0_2
  rw [View.canon_unit_zero hz]
  simp only [View.ld_unit_zero (S := S10000x256) hz, View.ld_unit_zero (S := S256x128) hz]
  funext j
  obtain ⟨p, q, rfl⟩ : ∃ (p : Fin 10000) (q : Fin 128), j = ix2 p q := ⟨j 0, j 1, eq_ix2 j⟩
  exact body0_apply V c t p q

/-- An index of the result is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Row r lies in block r / 10000: the ten blocks cover the result. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : grid0.N = 10 := Gen.N_0
  obtain ⟨t, ht⟩ : ∃ t : Fin cfg0.N, t.val = (i 0).val / 10000 :=
    ⟨⟨(i 0).val / 10000, by show _ < grid0.N; omega⟩, rfl⟩
  obtain ⟨-, -, -, -, e0, e1⟩ := idx_facts0 t
  refine ⟨t, Gen.flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- REGION 0's result array is the whole-array product of its two operands as the region finds them. -/
theorem region0_array (c : Dev nD) :
    (Gen.dat0 (F := Ideal) V c).arrAt 2 cfg0.N = prod0 (V c (Pipeline.arrRef spec0 0)) (V c (Pipeline.arrRef spec0 1)) :=
  (Gen.dat0 (F := Ideal) V c).arrAt_eq_of_cover 2 (arr0 V c) (fun t _ => flushed0_eq V c t) cover0

/-- The same with the operands named: whatever arrays the region's two operands are, the result is their product. -/
theorem region0_array_of (c : Dev nD) (A : S100000x256.Idx → EReal) (B : S256x128.Idx → EReal)
    (hA : V c (Pipeline.arrRef spec0 0) = A) (hB : V c (Pipeline.arrRef spec0 1) = B) :
    (Gen.dat0 (F := Ideal) V c).arrAt 2 cfg0.N = prod0 A B := by
  subst hA hB
  exact region0_array V c

/-- The same, read at row r and column q. -/
theorem region0_apply (c : Dev nD) (A : S100000x256.Idx → EReal) (B : S256x128.Idx → EReal)
    (hA : V c (Pipeline.arrRef spec0 0) = A) (hB : V c (Pipeline.arrRef spec0 1) = B) (r : Fin 100000) (q : Fin 128) :
    (Gen.dat0 (F := Ideal) V c).arrAt 2 cfg0.N (ix2 r q) = ∑ k : Fin 256, A (ix2 r k) * B (ix2 k q) :=
  congrFun (region0_array_of V c A B hA hB) (ix2 r q)

end Cert.KernelIdeal.Regions

end
-- ==== Proof.Region1Array.lean ====
/-
  The program's second matrix-product region, read as ONE whole-array product.

  The region runs its body over a grid of ten points: point t stages rows 10000·t … 10000·t + 9999 of the left operand
  (100000 × 128) and the whole right operand (128 × 128), forms their product into a zero accumulator and writes it
  back as rows 10000·t … 10000·t + 9999 of the result (100000 × 128). Over the extended reals a change of float format
  is the identity, a shape cast of an array to its own shape is the identity, and the product into the zero
  accumulator is the plain sum over the shared axis; so what point t writes back is block t of the single array
  i ↦ ∑ k, left (i₀, k) · right (k, i₁)  of the operands as the region finds them. Row r of the result lies in block
  r / 10000, so the ten blocks cover the array and the result IS that array.
-/
import proofs.«115430_j29643864277064_2_alg».proof.Proof.Gen.KernelIdeal.Frame
import proofs.«115430_j29643864277064_2_alg».proof.Proof.LibPlainMatmul
import Idealize.ShloMosaic.Lib.ValueIdx
import Idealize.ShloMosaic.Lib.Pipeline.Value
import Idealize.ShloMosaic.PureOps.Ideal.Laws

noncomputable section

namespace Cert.KernelIdeal.Regions1

open Cert.KernelIdeal Cert.KernelIdeal.Gen Idealize.ShloMosaic Idealize.ShloMosaic.TcCoe Idealize.SL.Sem
open Idealize.ShloMosaic.ValueIdx Cert.LibPlainMatmul
open Idealize.ShloMosaic.Pipeline (Dat)
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

/-! ## A [100000, 128] by [128, 128] product in ten row blocks -/

/-- The body's value at (p, q): the two shape casts are of an array to its own shape, both format changes are the
    identity, and the product into the zero accumulator is the sum over the shared axis of row p of the left block
    against column q of the right operand. -/
theorem pay1_apply (x0 : Vec Ideal S10000x128 .f32) (x1 : Vec Ideal S128x128 .f32) (p : Fin 10000) (q : Fin 128) :
    Gen.k1_pay1 x0 x1 (ix2 p q) = ∑ k : Fin 128, x0 (ix2 p k) * x1 (ix2 k q) := by
  unfold Gen.k1_pay1
  simp only [shapeCast_self]
  exact matmul_zero_plain _ _ _ p q

/-- The block indices over the grid: the left operand's and the result's blocks move down the rows with the point, the
    right operand's block is the whole operand. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 10000·t … of the operand. -/
theorem lblk1_apply (c : Dev nD) (t : Fin cfg1.N) (y : S10000x128.Idx) (i : S100000x128.Idx)
    (h0 : (i 0).val = t.val * 10000 + (y 0).val) (h1 : (i 1).val = (y 1).val) :
    (Gen.iblk1 V c 0 t : Vec Ideal S10000x128 .f32) y = (V c (Pipeline.arrRef spec1 0) : S100000x128.Idx → EReal) i := by
  obtain ⟨e0, e1, -⟩ := idx_facts1 t
  unfold Gen.iblk1
  rw [View.read_apply]
  show (V c (Pipeline.arrRef spec1 0) : S100000x128.Idx → EReal) _ = _
  refine congrArg (V c (Pipeline.arrRef spec1 0) : S100000x128.Idx → EReal) ?_
  funext a
  apply Fin.ext
  match a with
  | ⟨0, _⟩ => show win1_0.index t (0 : Fin 2) * 10000 + 1 * (y 0).val = (i 0).val; omega
  | ⟨1, _⟩ => show win1_0.index t (1 : Fin 2) * 128 + 1 * (y 1).val = (i 1).val; omega

/-- The right operand's block at every point is the operand. -/
theorem rblk1_apply (c : Dev nD) (t : Fin cfg1.N) (y : S128x128.Idx) :
    (Gen.iblk1 V c 1 t : Vec Ideal S128x128 .f32) y = (V c (Pipeline.arrRef spec1 1) : S128x128.Idx → EReal) y := by
  obtain ⟨-, -, e0, e1, -⟩ := idx_facts1 t
  unfold Gen.iblk1
  rw [View.read_apply]
  show (V c (Pipeline.arrRef spec1 1) : S128x128.Idx → EReal) _ = _
  refine congrArg (V c (Pipeline.arrRef spec1 1) : S128x128.Idx → EReal) ?_
  funext a
  apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The product of a [100000, 128] array and a [128, 128] array, entry by entry. -/
abbrev prod1 (A : S100000x128.Idx → EReal) (B : S128x128.Idx → EReal) : S100000x128.Idx → EReal := fun i =>
  ∑ k : Fin 128, A (ix2 (n0 := 100000) (i 0) k) * B (ix2 (n1 := 128) k (i 1))

/-- The whole-array product of the two operands as the region finds them. -/
abbrev arr1 (c : Dev nD) : S100000x128.Idx → EReal :=
  prod1 (V c (Pipeline.arrRef spec1 0)) (V c (Pipeline.arrRef spec1 1))

/-- The body's value on the blocks of point t, at an element of the block, is the whole-array product at that element's
    place in the array. -/
theorem body1_apply (c : Dev nD) (t : Fin cfg1.N) (p : Fin 10000) (q : Fin 128) :
    Gen.k1_pay1 (Gen.iblk1 V c 0 t) (Gen.iblk1 V c 1 t) (ix2 p q) = arr1 V c (((cfg1.win 2).blk t).view.emb (ix2 p q)) := by
  obtain ⟨-, -, -, -, e0, e1⟩ := idx_facts1 t
  refine (pay1_apply _ _ p q).trans ?_
  show (∑ k : Fin 128, _) = ∑ k : Fin 128, _
  refine Finset.sum_congr rfl fun k _ => ?_
  have hl := lblk1_apply V c t (ix2 p k) (ix2 (n0 := 100000) ((((cfg1.win 2).blk t).view.emb (ix2 p q) : S100000x128.Idx) 0) k)
    (by show win1_2.index t (0 : Fin 2) * 10000 + 1 * p.val = t.val * 10000 + p.val; omega) rfl
  have hr := rblk1_apply V c t (ix2 k q)
  have hq : (ix2 k q : S128x128.Idx) = ix2 (n1 := 128) k ((((cfg1.win 2).blk t).view.emb (ix2 p q) : S100000x128.Idx) 1) := by
    funext a
    apply Fin.ext
    match a with
    | ⟨0, _⟩ => rfl
    | ⟨1, _⟩ => show q.val = win1_2.index t (1 : Fin 2) * 128 + 1 * q.val; omega
  rw [hl, hr, hq]

/-- What point t writes back is block t of the whole-array product. -/
theorem flushed1_eq (c : Dev nD) (t : Fin cfg1.N) :
    (Gen.dat1 (F := Ideal) V c).flushed 2 t = ((cfg1.win 2).blk t).view.read (Elt Ideal) (arr1 V c) := by
  show (cfg1.win 2).cut (grid1.coords t) ((Gen.dat1 (F := Ideal) V c).after 2 t) = _
  rw [Gen.after1_2]
  unfold Gen.out1_2
  rw [View.canon_unit_zero hz1]
  simp only [View.ld_unit_zero (S := S10000x128) hz1, View.ld_unit_zero (S := S128x128) hz1]
  funext j
  obtain ⟨p, q, rfl⟩ : ∃ (p : Fin 10000) (q : Fin 128), j = ix2 p q := ⟨j 0, j 1, eq_ix2 j⟩
  exact body1_apply V c t p q

/-- An index of the result is in point t's block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v53).slice (win1_2.rect t)).set ↔ _
  rw [View.set_slice_whole, Rect.mem_set_unit]
  exact Iff.rfl

/-- Row r lies in block r / 10000: the ten blocks cover the result. -/
theorem cover1 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : grid1.N = 10 := Gen.N_1
  obtain ⟨t, ht⟩ : ∃ t : Fin cfg1.N, t.val = (i 0).val / 10000 :=
    ⟨⟨(i 0).val / 10000, by show _ < grid1.N; omega⟩, rfl⟩
  obtain ⟨-, -, -, -, e0, e1⟩ := idx_facts1 t
  refine ⟨t, Gen.flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- REGION 1's result array is the whole-array product of its two operands as the region finds them. -/
theorem region1_array (c : Dev nD) :
    (Gen.dat1 (F := Ideal) V c).arrAt 2 cfg1.N = prod1 (V c (Pipeline.arrRef spec1 0)) (V c (Pipeline.arrRef spec1 1)) :=
  (Gen.dat1 (F := Ideal) V c).arrAt_eq_of_cover 2 (arr1 V c) (fun t _ => flushed1_eq V c t) cover1

/-- The same with the operands named: whatever arrays the region's two operands are, the result is their product. -/
theorem region1_array_of (c : Dev nD) (A : S100000x128.Idx → EReal) (B : S128x128.Idx → EReal)
    (hA : V c (Pipeline.arrRef spec1 0) = A) (hB : V c (Pipeline.arrRef spec1 1) = B) :
    (Gen.dat1 (F := Ideal) V c).arrAt 2 cfg1.N = prod1 A B := by
  subst hA hB
  exact region1_array V c

/-- The same, read at row r and column q. -/
theorem region1_apply (c : Dev nD) (A : S100000x128.Idx → EReal) (B : S128x128.Idx → EReal)
    (hA : V c (Pipeline.arrRef spec1 0) = A) (hB : V c (Pipeline.arrRef spec1 1) = B) (r : Fin 100000) (q : Fin 128) :
    (Gen.dat1 (F := Ideal) V c).arrAt 2 cfg1.N (ix2 r q) = ∑ k : Fin 128, A (ix2 r k) * B (ix2 k q) :=
  congrFun (region1_array_of V c A B hA hB) (ix2 r q)

end Cert.KernelIdeal.Regions1

end
-- ==== Proof.Products.lean ====
/-
  The kernel's two matrix-product regions against the contents of the TensorCore's buffers at the regions' boundaries.

  The first region's result array, as the run leaves it, is the product of the first two argument arrays: no host
  operation before the region writes an argument, so the region finds them as launched, and the whole-array product
  of the two is, entry by entry, the sum over the shared axis that the reference's dot_general of the same two
  arguments reads — the two sums run over the same index set and their terms sit at the same coordinates.

  The second region's result array, as the run leaves it, is the product of the two arrays the region finds in its
  operand buffers (the hidden layer and the folded weight), whatever those arrays are: the statement names them, so
  that what the host operations before the region computed can be substituted for them.
-/
import proofs.«115430_j29643864277064_2_alg».proof.Proof.RegionArrays
import proofs.«115430_j29643864277064_2_alg».proof.Proof.Region1Array
import proofs.«115430_j29643864277064_2_alg».proof.Proof.KernelHost0
import proofs.«115430_j29643864277064_2_alg».proof.Proof.RefRead

noncomputable section

namespace Cert.KernelIdeal.Products

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-- The whole-array product of a [100000, 256] and a [256, 128] array is the reference's dot_general of them: at
    (r, q) both are the sum over k of the left array at (r, k) times the right at (k, q). -/
theorem prod0_eq_dot (A : S100000x256.Idx → EReal) (B : S256x128.Idx → EReal) :
    Regions.prod0 A B = Cert.ReferenceIdeal.Read.val_main_v7 (F := Ideal) A B := by
  funext i
  obtain ⟨r, q, rfl⟩ : ∃ (r : Fin 100000) (q : Fin 128), i = ix2 r q := ⟨i 0, i 1, eq_ix2 i⟩
  refine Eq.trans ?_ (Cert.ReferenceIdeal.Read.val_main_v7_apply A B (ix2 r q)).symm
  show (∑ k : Fin 256, _) = ∑ k : Fin 256, _
  refine Finset.sum_congr rfl fun k _ => ?_
  exact congrArg₂ (fun a b : EReal => a * b)
    (congrArg A (funext fun a => Fin.ext (by match a with | ⟨0, _⟩ => rfl | ⟨1, _⟩ => rfl)))
    (congrArg B (funext fun a => Fin.ext (by match a with | ⟨0, _⟩ => rfl | ⟨1, _⟩ => rfl)))

/-- THE FIRST PRODUCT: at the first region's exit its result array is the reference's dot_general of the first two
    arguments as launched. -/
theorem first_product (c : Dev nD) :
    W4 m ρ c (Proc.devRef .tc main_v30)
      = Cert.ReferenceIdeal.Read.val_main_v7 (F := Ideal) (m ((c.tc : Thread nD τ).loc main_arg0)) (m ((c.tc : Thread nD τ).loc main_arg1)) :=
  ((W4_arr m ρ c 2).trans
    (Regions.region0_array_of (V3 m ρ) c (m ((c.tc : Thread nD τ).loc main_arg0)) (m ((c.tc : Thread nD τ).loc main_arg1))
      (Hand.W3_arg0 m ρ c) (Hand.W3_arg1 m ρ c))).trans
    (prod0_eq_dot _ _)

/-- THE SECOND PRODUCT, as an array: at the second region's exit its result array is the product of the two arrays the
    region's operand buffers hold at its entry. -/
theorem second_product_array (c : Dev nD) (A : S100000x128.Idx → EReal) (B : S128x128.Idx → EReal)
    (hA : W7 m ρ c (Proc.devRef .tc main_v48) = A) (hB : W7 m ρ c (Proc.devRef .tc main_v52) = B) :
    W8 m ρ c (Proc.devRef .tc main_v53) = Regions1.prod1 A B :=
  (W8_arr m ρ c 2).trans (Regions1.region1_array_of (V7 m ρ) c A B hA hB)

/-- The same, read at row r and column q: the sum over the shared axis of row r of the left array against column q of
    the right. -/
theorem second_product (c : Dev nD) (A : S100000x128.Idx → EReal) (B : S128x128.Idx → EReal)
    (hA : W7 m ρ c (Proc.devRef .tc main_v48) = A) (hB : W7 m ρ c (Proc.devRef .tc main_v52) = B)
    (r : Fin 100000) (q : Fin 128) :
    W8 m ρ c (Proc.devRef .tc main_v53) (ix2 r q) = ∑ k : Fin 128, A (ix2 r k) * B (ix2 k q) :=
  congrFun (second_product_array m ρ c A B hA hB) (ix2 r q)

end Cert.KernelIdeal.Products

end
-- ==== Proof.Basic.lean ====
/-
  The one notion the other modules of this proof share: an array of extended reals all of whose entries are real
  numbers. On the extended reals a product distributes over a sum, and a factor moves across a difference, only away
  from the two infinities; the arrays this proof rearranges are shown to be of this kind first.
-/
import Idealize.ShloMosaic.PureOps.Ideal

namespace Cert.Hand

/-- Every entry of the array is (the coercion of) a real number: neither infinity occurs. -/
def AllReal {ι : Type} (f : ι → EReal) : Prop := ∀ i, ∃ r : ℝ, f i = (r : EReal)

theorem AllReal.comp {ι κ : Type} {f : ι → EReal} (hf : AllReal f) (g : κ → ι) : AllReal (fun j => f (g j)) :=
  fun j => hf (g j)

end Cert.Hand
-- ==== Proof.LibReal.lean ====
/-
  Closure of "every entry is a real number" under the exact operations of the extended reals.

  On the extended reals a sum, a difference, a product or a maximum of two real numbers is again (the coercion of) a
  real number, and so is a finite sum of real numbers; the coercion commutes with each of these operations. The
  lemmas below state this entrywise for arrays, through the predicate `AllReal`, together with the scalar forms
  they rest on.
-/
import proofs.«115430_j29643864277064_2_alg».proof.Proof.Basic

open scoped BigOperators

namespace Cert.Hand

/-! ## Scalars -/

/-- An extended real is (the coercion of) a real number exactly when it is neither of the two infinities. -/
theorem isReal_iff (x : EReal) : (∃ r : ℝ, x = (r : EReal)) ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- The coercion of a finite sum of real numbers is the sum of the coercions. -/
theorem coe_finset_sum {κ : Type} (s : Finset κ) (f : κ → ℝ) :
    ((∑ k ∈ s, f k : ℝ) : EReal) = ∑ k ∈ s, (f k : EReal) := by
  classical
  induction s using Finset.induction_on with
  | empty => simp only [Finset.sum_empty, EReal.coe_zero]
  | insert a s ha ih => rw [Finset.sum_insert ha, Finset.sum_insert ha, EReal.coe_add, ih]

/-- The sum of two real numbers is a real number. -/
theorem isReal_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two real numbers is a real number. -/
theorem isReal_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The product of two real numbers is a real number. -/
theorem isReal_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The larger of two real numbers is a real number (it is one of the two). -/
theorem isReal_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- A finite sum of real numbers is a real number. -/
theorem isReal_sum {κ : Type} (s : Finset κ) {f : κ → EReal} (hf : ∀ k, ∃ r : ℝ, f k = (r : EReal)) :
    ∃ r : ℝ, ∑ k ∈ s, f k = (r : EReal) := by
  choose r hr using hf
  exact ⟨∑ k ∈ s, r k, by rw [coe_finset_sum]; exact Finset.sum_congr rfl (fun k _ => hr k)⟩

/-! ## Arrays -/

/-- A constant array whose value is a real number has only real entries. -/
theorem AllReal.const {ι : Type} (r : ℝ) : AllReal (fun _ : ι => (r : EReal)) :=
  fun _ => ⟨r, rfl⟩

/-- The entrywise sum of two arrays of real numbers is an array of real numbers. -/
theorem AllReal.add {ι : Type} {f g : ι → EReal} (hf : AllReal f) (hg : AllReal g) :
    AllReal (fun i => f i + g i) :=
  fun i => isReal_add (hf i) (hg i)

/-- The entrywise difference of two arrays of real numbers is an array of real numbers. -/
theorem AllReal.sub {ι : Type} {f g : ι → EReal} (hf : AllReal f) (hg : AllReal g) :
    AllReal (fun i => f i - g i) :=
  fun i => isReal_sub (hf i) (hg i)

/-- The entrywise product of two arrays of real numbers is an array of real numbers. -/
theorem AllReal.mul {ι : Type} {f g : ι → EReal} (hf : AllReal f) (hg : AllReal g) :
    AllReal (fun i => f i * g i) :=
  fun i => isReal_mul (hf i) (hg i)

/-- The entrywise maximum of two arrays of real numbers is an array of real numbers. -/
theorem AllReal.max {ι : Type} {f g : ι → EReal} (hf : AllReal f) (hg : AllReal g) :
    AllReal (fun i => max (f i) (g i)) :=
  fun i => isReal_max (hf i) (hg i)

/-- Summing, at each index, a finite family of real numbers (over a finite set that may depend on the index) gives
an array of real numbers. -/
theorem AllReal.sum {ι κ : Type} (s : ι → Finset κ) {f : ι → κ → EReal} (hf : ∀ i, AllReal (f i)) :
    AllReal (fun i => ∑ k ∈ s i, f i k) :=
  fun i => isReal_sum (s i) (hf i)

/-- Choosing at each index between two arrays of real numbers gives an array of real numbers. -/
theorem AllReal.ite {ι : Type} (p : ι → Prop) [DecidablePred p] {f g : ι → EReal} (hf : AllReal f)
    (hg : AllReal g) : AllReal (fun i => if p i then f i else g i) := by
  intro i
  by_cases h : p i
  · simp only [if_pos h]; exact hf i
  · simp only [if_neg h]; exact hg i

end Cert.Hand
-- ==== Proof.LibAnchoredSum.lean ====
/-
  The identity that lets a difference be moved from one factor of a row-by-column product to the other.

  For rows `h` and `c` of `n` real numbers and a column `W` of `n + n` real numbers, the concatenated row
  `[h - c, c]` against `W` equals `h` against the top half of `W` plus `c` against (bottom half - top half):

      sum_{k < n} (h k - c k) * W k  +  sum_{k < n} c k * W (k + n)
        =  sum_{k < n} h k * W k  +  sum_{k < n} c k * (W (k + n) - W k).

  Over the real numbers this is distributivity, term by term. Over the extended reals distributivity holds only away
  from the infinities, so the entries are assumed real: each side is then the coercion of the corresponding real
  expression, and the real identity transfers.
-/
import proofs.«115430_j29643864277064_2_alg».proof.Proof.Basic
import proofs.«115430_j29643864277064_2_alg».proof.Proof.LibReal

open scoped BigOperators

namespace Cert.Hand

/-- The identity over the real numbers, for any half-length `n`: split the sum over `Fin (n + n)` into its two
halves and compare term by term. -/
theorem anchored_sum_real (n : ℕ) (h c : Fin n → ℝ) (W : Fin (n + n) → ℝ) :
    (∑ k : Fin (n + n),
        (if hk : k.val < n then h ⟨k.val, hk⟩ - c ⟨k.val, hk⟩ else c ⟨k.val - n, by omega⟩) * W k)
      = (∑ k : Fin n, h k * W ⟨k.val, by omega⟩)
        + ∑ k : Fin n, c k * (W ⟨k.val + n, by omega⟩ - W ⟨k.val, by omega⟩) := by
  rw [Fin.sum_univ_add, ← Finset.sum_add_distrib, ← Finset.sum_add_distrib]
  refine Finset.sum_congr rfl (fun k _ => ?_)
  have h1 : (Fin.castAdd n k).val < n := k.isLt
  have h2 : ¬ (Fin.natAdd n k).val < n := by simp only [Fin.coe_natAdd]; omega
  have e2 : (⟨(Fin.natAdd n k).val - n, by simp only [Fin.coe_natAdd]; omega⟩ : Fin n) = k :=
    Fin.ext (by simp only [Fin.coe_natAdd]; omega)
  have e3 : Fin.castAdd n k = ⟨k.val, by omega⟩ := rfl
  have e4 : Fin.natAdd n k = ⟨k.val + n, by omega⟩ := Fin.ext (by simp only [Fin.coe_natAdd]; omega)
  rw [dif_pos h1, dif_neg h2, e2, ← e3, ← e4]
  have e1 : (⟨(Fin.castAdd n k).val, h1⟩ : Fin n) = k := rfl
  rw [e1]
  ring

/-- The identity over the extended reals, for any half-length `n`, when every entry of the two rows and of the
column is a real number. -/
theorem anchored_sum_gen (n : ℕ) (h c : Fin n → EReal) (W : Fin (n + n) → EReal) (hh : AllReal h)
    (hc : AllReal c) (hW : AllReal W) :
    (∑ k : Fin (n + n),
        (if hk : k.val < n then h ⟨k.val, hk⟩ - c ⟨k.val, hk⟩ else c ⟨k.val - n, by omega⟩) * W k)
      = (∑ k : Fin n, h k * W ⟨k.val, by omega⟩)
        + ∑ k : Fin n, c k * (W ⟨k.val + n, by omega⟩ - W ⟨k.val, by omega⟩) := by
  choose rh hrh using hh
  choose rc hrc using hc
  choose rW hrW using hW
  have L : ∀ k : Fin (n + n),
      (if hk : k.val < n then h ⟨k.val, hk⟩ - c ⟨k.val, hk⟩ else c ⟨k.val - n, by omega⟩) * W k
        = (((if hk : k.val < n then rh ⟨k.val, hk⟩ - rc ⟨k.val, hk⟩ else rc ⟨k.val - n, by omega⟩) * rW k : ℝ)
            : EReal) := by
    intro k
    by_cases hk : k.val < n
    · simp only [dif_pos hk, hrh, hrc, hrW, EReal.coe_mul, EReal.coe_sub]
    · simp only [dif_neg hk, hrc, hrW, EReal.coe_mul]
  rw [Finset.sum_congr rfl (fun k _ => L k), ← coe_finset_sum, anchored_sum_real n rh rc rW]
  simp only [hrh, hrc, hrW, EReal.coe_add, coe_finset_sum, EReal.coe_mul, EReal.coe_sub]

/-- The identity at half-length 128: the concatenation `[h - c, c]` of two rows of 128 real numbers against a
column of 256 real numbers equals `h` against the column's top half plus `c` against (bottom half - top half). -/
theorem anchored_sum (h c : Fin 128 → EReal) (W : Fin 256 → EReal) (hh : AllReal h) (hc : AllReal c)
    (hW : AllReal W) :
    (∑ k : Fin 256,
        (if hk : k.val < 128 then h ⟨k.val, hk⟩ - c ⟨k.val, hk⟩ else c ⟨k.val - 128, by omega⟩) * W k)
      = (∑ k : Fin 128, h k * W ⟨k.val, by omega⟩)
        + ∑ k : Fin 128, c k * (W ⟨k.val + 128, by omega⟩ - W ⟨k.val, by omega⟩) :=
  anchored_sum_gen 128 h c W hh hc hW

end Cert.Hand
-- ==== Proof.SecondProduct.lean ====
/-
  The second layer's product, compared.

  The reference multiplies the 256-wide rows `[h i − h r, h r]` (row `i` of the hidden layer less the row `r` its
  permutation entry selects, then that row) by the 256 × 64 weight. The kernel multiplies the hidden layer by the folded
  weight `[W top, W bottom − W top]` (128 × 128) once, and adds the left half of row `i` of the product to the right half
  of row `r`. Entry by entry both are
      ∑ k, h i k · W k j  +  ∑ k, h r k · (W (k + 128) j − W k j),
  the reference's by moving the factor across the difference, which on the extended reals needs `h` and `W` to be
  real; the two programs select the same row `r`.
-/
import proofs.«115430_j29643864277064_2_alg».proof.Proof.Layer2Reads
import proofs.«115430_j29643864277064_2_alg».proof.Proof.Layer2Layout
import proofs.«115430_j29643864277064_2_alg».proof.Proof.LibAnchoredSum
import proofs.«115430_j29643864277064_2_alg».proof.Proof.RefRead
import proofs.«115430_j29643864277064_2_alg».proof.Proof.Basic

noncomputable section

namespace Cert.Hand.Second

open Idealize.ShloMosaic Idealize.ShloMosaic.ValueIdx Cert.Hand Cert.Hand.Layer2 Cert.Hand.Layout
open scoped BigOperators

variable [Cert.KernelIdeal.Facts₀]

/-- THE KERNEL'S SIDE at `(i, j)`: the left half of row `i` of the product plus the right half of the row `r` the
    permutation entry selects, the product being `h` times the folded weight. -/
theorem kernel_apply (h : Cert.ReferenceIdeal.S100000x128.Idx → EReal)
    (x3 : (⟨Cert.ReferenceIdeal.S256x64, .f32⟩ : BufTy).Contents (Elt Ideal))
    (x6 : (⟨Cert.ReferenceIdeal.S100000, .i32⟩ : BufTy).Contents (Elt Ideal))
    (Y : Cert.KernelIdeal.S100000x128.Idx → EReal)
    (hY : ∀ (i : Fin 100000) (j : Fin 128), Y (ix2 i j) = ∑ k : Fin 128, h (ix2 i k) * w2c (F := Ideal) x3 (ix2 k j))
    (i : Fin 100000) (j : Fin 64) :
    addf (F := Ideal) (φ := .f32)
        (extractStridedSlice Cert.KernelIdeal.S100000x64 ![0, 0] Y Cert.KernelIdeal.Facts₀.slices_S100000x128_S100000x64_0_0)
        (Host.gather Cert.KernelIdeal.gather_S100000x128_S100000x2_S100000x64_1_0_n_n_01_1_164 Y (idx63 x6)) (ix2 i j)
      = (∑ k : Fin 128, h (ix2 i k) * x3 (ix2 (⟨k.val, by omega⟩ : Fin 256) j))
        + ∑ k : Fin 128, h (ix2 (row x6 i) k)
            * (x3 (ix2 (⟨k.val + 128, by omega⟩ : Fin 256) j) - x3 (ix2 (⟨k.val, by omega⟩ : Fin 256) j)) := by
  change extractStridedSlice Cert.KernelIdeal.S100000x64 ![0, 0] Y Cert.KernelIdeal.Facts₀.slices_S100000x128_S100000x64_0_0 (ix2 i j)
      + Host.gather Cert.KernelIdeal.gather_S100000x128_S100000x2_S100000x64_1_0_n_n_01_1_164 Y (idx63 x6) (ix2 i j) = _
  rw [slice64_apply Y i j, kernel_gather_apply Y x6 i j, hY, hY]
  congr 1
  · refine Finset.sum_congr rfl fun k _ => ?_
    rw [w2c_apply, dif_pos (show ((⟨j.val, by omega⟩ : Fin 128) : Fin 128).val < 64 from j.isLt)]
  · refine Finset.sum_congr rfl fun k _ => ?_
    have e : (⟨64 + j.val - 64, by omega⟩ : Fin 64) = j := Fin.ext (by show 64 + j.val - 64 = j.val; omega)
    rw [w2c_apply, dif_neg (show ¬ ((⟨64 + j.val, by omega⟩ : Fin 128) : Fin 128).val < 64 from by
      show ¬ 64 + j.val < 64; omega)]
    show _ * (x3 (ix2 _ (⟨64 + j.val - 64, _⟩ : Fin 64)) - x3 (ix2 _ (⟨64 + j.val - 64, _⟩ : Fin 64))) = _
    rw [e]

/-- THE REFERENCE'S SIDE at `(i, j)`: the 256-wide row `[h i − h r, h r]` against column `j` of the weight. -/
theorem reference_apply
    (x0 : (⟨Cert.ReferenceIdeal.S100000x256, .f32⟩ : BufTy).Contents (Elt Ideal))
    (x1 : (⟨Cert.ReferenceIdeal.S256x128, .f32⟩ : BufTy).Contents (Elt Ideal))
    (x2 : (⟨Cert.ReferenceIdeal.S128, .f32⟩ : BufTy).Contents (Elt Ideal))
    (x3 : (⟨Cert.ReferenceIdeal.S256x64, .f32⟩ : BufTy).Contents (Elt Ideal))
    (x5 : (⟨Cert.ReferenceIdeal.S2x1600000, .i32⟩ : BufTy).Contents (Elt Ideal))
    (x6 : (⟨Cert.ReferenceIdeal.S100000, .i32⟩ : BufTy).Contents (Elt Ideal))
    (i : Fin 100000) (j : Fin 64) :
    Cert.ReferenceIdeal.Read.val_main_v57 (F := Ideal) x0 x1 x2 x3 x5 x6 (ix2 i j)
      = ∑ k : Fin 256,
          (if hk : k.val < 128 then
              Cert.ReferenceIdeal.Read.val_main_v47 (F := Ideal) x0 x1 x2 x5 (ix2 i (⟨k.val, hk⟩ : Fin 128))
                - Cert.ReferenceIdeal.Read.val_main_v47 (F := Ideal) x0 x1 x2 x5 (ix2 (row x6 i) (⟨k.val, hk⟩ : Fin 128))
            else Cert.ReferenceIdeal.Read.val_main_v47 (F := Ideal) x0 x1 x2 x5
                (ix2 (row x6 i) (⟨k.val - 128, by omega⟩ : Fin 128)))
          * x3 (ix2 k j) := by
  rw [Cert.ReferenceIdeal.Read.val_main_v57_apply]
  refine Finset.sum_congr rfl fun k _ => ?_
  have hl : Cert.ReferenceIdeal.Read.lidx_main_v57 (ix2 i j) k = ix2 i k := by
    funext a; match a with | ⟨0, _⟩ => rfl | ⟨1, _⟩ => rfl
  have hr : Cert.ReferenceIdeal.Read.ridx_main_v57 (ix2 i j) k = ix2 k j := by
    funext a; match a with | ⟨0, _⟩ => rfl | ⟨1, _⟩ => rfl
  rw [hl, hr]
  congr 1
  unfold Cert.ReferenceIdeal.Read.val_main_v56
  refine (concat256_apply _ _ i k).trans ?_
  by_cases hk : k.val < 128
  · rw [dif_pos hk, dif_pos hk, Cert.ReferenceIdeal.Read.val_main_v55_apply]
    unfold Cert.ReferenceIdeal.Read.val_main_v54
    rw [ref_gather_apply]
    rfl
  · rw [dif_neg hk, dif_neg hk]
    unfold Cert.ReferenceIdeal.Read.val_main_v54
    rw [ref_gather_apply]

/-- THE SECOND PRODUCT: the kernel's sum of the two halves is the reference's product, as arrays. -/
theorem second_product
    (x0 : (⟨Cert.ReferenceIdeal.S100000x256, .f32⟩ : BufTy).Contents (Elt Ideal))
    (x1 : (⟨Cert.ReferenceIdeal.S256x128, .f32⟩ : BufTy).Contents (Elt Ideal))
    (x2 : (⟨Cert.ReferenceIdeal.S128, .f32⟩ : BufTy).Contents (Elt Ideal))
    (x3 : (⟨Cert.ReferenceIdeal.S256x64, .f32⟩ : BufTy).Contents (Elt Ideal))
    (x5 : (⟨Cert.ReferenceIdeal.S2x1600000, .i32⟩ : BufTy).Contents (Elt Ideal))
    (x6 : (⟨Cert.ReferenceIdeal.S100000, .i32⟩ : BufTy).Contents (Elt Ideal))
    (Y : Cert.KernelIdeal.S100000x128.Idx → EReal)
    (hY : ∀ (i : Fin 100000) (j : Fin 128), Y (ix2 i j)
      = ∑ k : Fin 128, Cert.ReferenceIdeal.Read.val_main_v47 (F := Ideal) x0 x1 x2 x5 (ix2 i k) * w2c (F := Ideal) x3 (ix2 k j))
    (hh : AllReal (Cert.ReferenceIdeal.Read.val_main_v47 (F := Ideal) x0 x1 x2 x5)) (hx3 : AllReal x3) :
    addf (F := Ideal) (φ := .f32)
        (extractStridedSlice Cert.KernelIdeal.S100000x64 ![0, 0] Y Cert.KernelIdeal.Facts₀.slices_S100000x128_S100000x64_0_0)
        (Host.gather Cert.KernelIdeal.gather_S100000x128_S100000x2_S100000x64_1_0_n_n_01_1_164 Y (idx63 x6))
      = Cert.ReferenceIdeal.Read.val_main_v57 (F := Ideal) x0 x1 x2 x3 x5 x6 := by
  funext idx
  obtain ⟨i, j, rfl⟩ : ∃ (i : Fin 100000) (j : Fin 64), idx = ix2 i j := ⟨idx 0, idx 1, eq_ix2 idx⟩
  rw [kernel_apply _ x3 x6 Y hY i j, reference_apply x0 x1 x2 x3 x5 x6 i j]
  exact (anchored_sum
    (fun k => Cert.ReferenceIdeal.Read.val_main_v47 (F := Ideal) x0 x1 x2 x5 (ix2 i k))
    (fun k => Cert.ReferenceIdeal.Read.val_main_v47 (F := Ideal) x0 x1 x2 x5 (ix2 (row x6 i) k))
    (fun k => x3 (ix2 k j)) (hh.comp _) (hh.comp _) (hx3.comp _)).symm

end Cert.Hand.Second

end
-- ==== Proof.RefReal.lean ====
/-
  The hidden layer of the reference is real-valued.

  The reference computes h = relu(segment_sum((x·W1)[src] · norm, dst) + b1), with
  norm = dinv[src] · dinv[dst], dinv = where(deg > 0, rsqrt(deg), 0) and deg = segment_sum(ones, dst).
  At the instance where a float is an extended real, each of these operations keeps real numbers real:
    • a gather and a broadcast only re-read entries of their operand, so nothing is asked of the index arrays;
    • an accumulating scatter gives the operand's entry plus a finite sum of update entries (which updates land at a
      position depends on the indices, but they always form a finite set), and a real plus a finite sum of reals is
      real; so the degree (zeros plus a sum of ones) is real, and so is the aggregated message;
    • the matrix product's entry is a sum over 256 products of reals;
    • the reciprocal square root is read only where the degree is a positive real, where it is the real (√deg)⁻¹;
      elsewhere the select takes the real 0 — the conventions of the reciprocal square root at 0 and at the
      infinities are never met;
    • products, sums, and the maximum with 0 of reals are real.
  Every step is stated over arbitrary arrays and shapes first and only then applied to the program's values, one
  definition at a time; nothing is ever evaluated over the node or edge ranges.
-/
import proofs.«115430_j29643864277064_2_alg».proof.Proof.RefRead
import proofs.«115430_j29643864277064_2_alg».proof.Proof.Basic
import Idealize.ShloMosaic.Lib.IdealHost

open Idealize.ShloMosaic

namespace Cert.Hand.RefReal

open Cert.Hand

/-! ### Real numbers inside the extended reals are closed under the operations used -/

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  rcases le_total a b with h | h
  · exact ⟨b, max_eq_right (EReal.coe_le_coe_iff.mpr h)⟩
  · exact ⟨a, max_eq_left (EReal.coe_le_coe_iff.mpr h)⟩

theorem real_sum {κ : Type} (s : Finset κ) (f : κ → EReal) (hf : ∀ k, ∃ r : ℝ, f k = (r : EReal)) :
    ∃ r : ℝ, ∑ k ∈ s, f k = (r : EReal) := by
  classical
  induction s using Finset.induction_on with
  | empty => exact ⟨0, by rw [Finset.sum_empty, EReal.coe_zero]⟩
  | insert a s ha ih =>
    rw [Finset.sum_insert ha]
    exact real_add (hf a) ih

/-! ### One closure step per array operation, over arbitrary shapes and index arrays -/

section Ops
variable {s si su t : Shape} {φ : FTy} {w : Nat}

/-- A gather re-reads entries of its operand, whatever the index array holds. -/
theorem gather_real (d : GatherDims s si t) (x : s.Idx → EReal) (idx : IVec si w) (hx : AllReal x) :
    AllReal (Host.gather d x idx) :=
  fun j => hx (d.operandIdx j idx)

/-- An accumulating scatter gives, at each position, the operand's entry plus a finite sum of update entries
    (which updates land there depends on the index array; that they form a finite set is all that is used). -/
theorem scatterAdd_real (d : ScatterDims s si su) (x : FVec Ideal s φ) (idx : IVec si w) (upd : FVec Ideal su φ)
    (hx : AllReal x) (hu : AllReal upd) : AllReal (Host.scatterAdd d x idx upd) := by
  intro i
  unfold Host.scatterAdd
  rw [Ideal.hostScatterAdd_def]
  unfold Ideal.hostScatterAdd
  exact real_add (hx i) (real_sum _ _ hu)

theorem mulf_real (x y : FVec Ideal s φ) (hx : AllReal x) (hy : AllReal y) : AllReal (mulf x y) :=
  fun i => real_mul (hx i) (hy i)

theorem addf_real (x y : FVec Ideal s φ) (hx : AllReal x) (hy : AllReal y) : AllReal (addf x y) :=
  fun i => real_add (hx i) (hy i)

theorem maximumf_real (x y : FVec Ideal s φ) (hx : AllReal x) (hy : AllReal y) : AllReal (maximumf x y) :=
  fun i => real_max (hx i) (hy i)

/-- The normalising factor: where the degree is positive its reciprocal square root, a real number; elsewhere the
    other branch. Only the positive real case of the reciprocal square root is ever taken. -/
theorem select_gt_rsqrt_real (deg zero z : FVec Ideal s φ) (hdeg : AllReal deg) (hzero : ∀ i, zero i = 0)
    (hz : AllReal z) : AllReal (select (cmpf .ogt deg zero) (Host.rsqrt deg) z) := by
  intro i
  show ∃ r : ℝ, Scalar.select (Ideal.cmp .ogt (deg i) (zero i)) (Ideal.rsqrt (deg i)) (z i) = (r : EReal)
  obtain ⟨a, ha⟩ := hdeg i
  rw [ha, hzero i]
  unfold Scalar.select Ideal.cmp
  by_cases h : (0 : EReal) < (a : EReal)
  · have ha0 : 0 < a := EReal.coe_pos.mp h
    refine ⟨(Real.sqrt a)⁻¹, ?_⟩
    rw [if_pos (by simp [h]), Ideal.rsqrt_coe, if_neg (not_lt.mpr ha0.le), if_neg ha0.ne']
  · rw [if_neg (by simp [h])]
    exact hz i

end Ops

/-! ### The program's values, in program order -/

section Chain
open Cert.ReferenceIdeal Cert.ReferenceIdeal.Read

/-- The float word `0x00000000` is the real number 0. -/
theorem zero_word : ∃ r : ℝ, FloatOps.ofBits (F := Ideal) .f32 0x00000000#32 = (r : EReal) :=
  ⟨0, Ideal.ofBits_zero_f32.trans EReal.coe_zero.symm⟩

/-- The float word `0x3F800000` is the real number 1. -/
theorem one_word : ∃ r : ℝ, FloatOps.ofBits (F := Ideal) .f32 0x3F800000#32 = (r : EReal) :=
  ⟨1, Ideal.ofBits_one_f32.trans EReal.coe_one.symm⟩

variable (x0 : (⟨S100000x256, .f32⟩ : BufTy).Contents (Elt Ideal)) (x1 : (⟨S256x128, .f32⟩ : BufTy).Contents (Elt Ideal))
  (x2 : (⟨S128, .f32⟩ : BufTy).Contents (Elt Ideal)) (x5 : (⟨S2x1600000, .i32⟩ : BufTy).Contents (Elt Ideal))

/-- x·W1: each entry is a sum over 256 products of reals. -/
theorem v7_real (h0 : AllReal x0) (h1 : AllReal x1) : AllReal (val_main_v7 (F := Ideal) x0 x1) := by
  intro i
  rw [val_main_v7_apply]
  exact real_sum _ _ fun k => real_mul (h0 _) (h1 _)

/-- The ones that are summed into the degree. -/
theorem v8_real : AllReal (val_main_v8 (F := Ideal)) := by
  intro i
  rw [val_main_v8_apply, val_main_cst_apply]
  exact one_word

/-- The zeros the degree is accumulated into. -/
theorem v9_real : AllReal (val_main_v9 (F := Ideal)) := by
  intro i
  rw [val_main_v9_apply, val_main_cst_0_apply]
  exact zero_word

/-- The degree: zeros plus a finite sum of ones. -/
theorem v11_real : AllReal (val_main_v11 (F := Ideal) x5) := by
  unfold val_main_v11
  exact scatterAdd_real _ _ _ _ v9_real v8_real

/-- The threshold the degree is compared with is 0. -/
theorem v12_zero (i : S100000.Idx) : val_main_v12 (F := Ideal) i = 0 := by
  rw [val_main_v12_apply, val_main_cst_1_apply]
  exact Ideal.ofBits_zero_f32

/-- The value taken where the degree is not positive: 0. -/
theorem call0_v1_real : AllReal (val_main_call0_v1 (F := Ideal)) := by
  intro i
  rw [val_main_call0_v1_apply, val_main_call0_v0_apply, val_main_cst_2_apply]
  exact zero_word

/-- dinv = where(deg > 0, rsqrt(deg), 0). -/
theorem v15_real : AllReal (val_main_v15 (F := Ideal) x5) := by
  unfold val_main_v15 val_main_v13 val_main_v14
  exact select_gt_rsqrt_real _ _ _ (v11_real x5) v12_zero call0_v1_real

/-- dinv[src]. -/
theorem v22_real : AllReal (val_main_v22 (F := Ideal) x5) := by
  unfold val_main_v22
  exact gather_real _ _ _ (v15_real x5)

/-- dinv[dst]. -/
theorem v29_real : AllReal (val_main_v29 (F := Ideal) x5) := by
  unfold val_main_v29
  exact gather_real _ _ _ (v15_real x5)

/-- norm = dinv[src] · dinv[dst]. -/
theorem v30_real : AllReal (val_main_v30 (F := Ideal) x5) := by
  unfold val_main_v30
  exact mulf_real _ _ (v22_real x5) (v29_real x5)

/-- (x·W1)[src]. -/
theorem v37_real (h0 : AllReal x0) (h1 : AllReal x1) : AllReal (val_main_v37 (F := Ideal) x0 x1 x5) := by
  unfold val_main_v37
  exact gather_real _ _ _ (v7_real x0 x1 h0 h1)

/-- norm as a column. -/
theorem v38_real : AllReal (val_main_v38 (F := Ideal) x5) := by
  intro i
  rw [val_main_v38_apply]
  exact v30_real x5 _

/-- norm repeated along the feature axis. -/
theorem v39_real : AllReal (val_main_v39 (F := Ideal) x5) := by
  intro i
  rw [val_main_v39_apply]
  exact v38_real x5 _

/-- The messages (x·W1)[src] · norm. -/
theorem v40_real (h0 : AllReal x0) (h1 : AllReal x1) : AllReal (val_main_v40 (F := Ideal) x0 x1 x5) := by
  unfold val_main_v40
  exact mulf_real _ _ (v37_real x0 x1 x5 h0 h1) (v39_real x5)

/-- The zeros the messages are accumulated into. -/
theorem v41_real : AllReal (val_main_v41 (F := Ideal)) := by
  intro i
  rw [val_main_v41_apply, val_main_cst_8_apply]
  exact zero_word

/-- The aggregated messages: zeros plus a finite sum of messages. -/
theorem v43_real (h0 : AllReal x0) (h1 : AllReal x1) : AllReal (val_main_v43 (F := Ideal) x0 x1 x5) := by
  unfold val_main_v43
  exact scatterAdd_real _ _ _ _ v41_real (v40_real x0 x1 x5 h0 h1)

/-- The bias as a row. -/
theorem v44_real (h2 : AllReal x2) : AllReal (val_main_v44 (F := Ideal) x2) := by
  intro i
  rw [val_main_v44_apply]
  exact h2 _

/-- The bias repeated along the node axis. -/
theorem v45_real (h2 : AllReal x2) : AllReal (val_main_v45 (F := Ideal) x2) := by
  intro i
  rw [val_main_v45_apply]
  exact v44_real x2 h2 _

/-- The pre-activation. -/
theorem v46_real (h0 : AllReal x0) (h1 : AllReal x1) (h2 : AllReal x2) :
    AllReal (val_main_v46 (F := Ideal) x0 x1 x2 x5) := by
  unfold val_main_v46
  exact addf_real _ _ (v43_real x0 x1 x5 h0 h1) (v45_real x2 h2)

/-- The zeros of the rectifier. -/
theorem call1_v0_real : AllReal (val_main_call1_v0 (F := Ideal)) := by
  intro i
  rw [val_main_call1_v0_apply, val_main_call1_cst_apply]
  exact zero_word

/-- The hidden layer h = max(pre-activation, 0) is real-valued, whatever the edge index array holds. -/
theorem hidden_real (x0 : (⟨S100000x256, .f32⟩ : BufTy).Contents (Elt Ideal)) (x1 : (⟨S256x128, .f32⟩ : BufTy).Contents (Elt Ideal))
    (x2 : (⟨S128, .f32⟩ : BufTy).Contents (Elt Ideal)) (x5 : (⟨S2x1600000, .i32⟩ : BufTy).Contents (Elt Ideal))
    (h0 : AllReal x0) (h1 : AllReal x1) (h2 : AllReal x2) :
    AllReal (Cert.ReferenceIdeal.Read.val_main_v47 (F := Ideal) x0 x1 x2 x5) := by
  unfold val_main_v47
  exact maximumf_real _ _ (v46_real x0 x1 x2 x5 h0 h1 h2) call1_v0_real

end Chain

end Cert.Hand.RefReal
-- ==== Proof.Bridge.lean ====
/-
  The idealized kernel's result is the reference's, as one function of the seven arguments.

  Both programs end with the same last step — gather the second layer's rows along the edges, scale by the edge
  normalisation, sum per destination node, add the bias — applied to a 100000 × 64 array: in the reference the product
  of the concatenation [h − c, c] (c the hidden layer's rows re-read through the permutation argument) with the
  256 × 64 weight; in the kernel the left half of row i of h · [W₁, W₂ − W₁] plus the right half of the row that the
  permutation argument selects for i, where W₁ and W₂ are the top and bottom halves of the weight. The hidden layer h is
  the same array in both programs, because the first matrix product is (a Pallas product over row blocks against one
  whole product); it is real-valued when the float arguments are, and so is the weight, so the two second-layer arrays
  agree entry by entry by distributivity, and the common last step is never opened.
-/
import proofs.«115430_j29643864277064_2_alg».proof.Proof.KernelKeeps
import proofs.«115430_j29643864277064_2_alg».proof.Proof.KernelHost2
import proofs.«115430_j29643864277064_2_alg».proof.Proof.Products
import proofs.«115430_j29643864277064_2_alg».proof.Proof.SecondProduct
import proofs.«115430_j29643864277064_2_alg».proof.Proof.RefReal
import proofs.«115430_j29643864277064_2_alg».proof.Proof.Tails

set_option maxRecDepth 16384

noncomputable section

namespace Cert.Hand.Bridge

open Cert.KernelIdeal Cert.KernelIdeal.Gen Cert.KernelIdeal.Hand
open Idealize.ShloMosaic Idealize.ShloMosaic.TcCoe Idealize.ShloMosaic.ValueIdx
open Idealize.SL.Sem
open Cert.Hand

variable (m : (ℓ : Loc nD τ sig) → Buf (Elt Ideal) ℓ) (ρ : Dev nD → PrngReg)

/-- The kernel's hidden layer is the reference's: the first product's output array is the whole product of the
    first two arguments, and the rest of the first layer is one function of it on both sides. -/
theorem hidden_eq (c : Dev nD)
    (hH : W7 m ρ c (Proc.devRef .tc main_v48)
      = Tails.layer1 (F := Ideal) (W4 m ρ c (Proc.devRef .tc main_v30)) (m ((c.tc : Thread nD τ).loc main_arg2)) (m ((c.tc : Thread nD τ).loc main_arg5))) :
    W7 m ρ c (Proc.devRef .tc main_v48)
      = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg5)) := by
  rw [hH, Cert.KernelIdeal.Products.first_product m ρ c]
  exact (Tails.hidden_eq _ _ _ _).symm

/-- The kernel's result array, at the last boundary of its run, is the reference's result as a function of the
    arguments — given that the four float arguments entering the two products are real-valued. -/
theorem kernel_result (c : Dev nD)
    (hH : W7 m ρ c (Proc.devRef .tc main_v48)
      = Tails.layer1 (F := Ideal) (W4 m ρ c (Proc.devRef .tc main_v30)) (m ((c.tc : Thread nD τ).loc main_arg2)) (m ((c.tc : Thread nD τ).loc main_arg5)))
    (hW : W7 m ρ c (Proc.devRef .tc main_v52) = Layout.w2c (F := Ideal) (m ((c.tc : Thread nD τ).loc main_arg3)))
    (h0 : AllReal ((m ((c.tc : Thread nD τ).loc main_arg0)) : S100000x256.Idx → EReal)) (h1 : AllReal ((m ((c.tc : Thread nD τ).loc main_arg1)) : S256x128.Idx → EReal))
    (h2 : AllReal ((m ((c.tc : Thread nD τ).loc main_arg2)) : S128.Idx → EReal)) (h3 : AllReal ((m ((c.tc : Thread nD τ).loc main_arg3)) : S256x64.Idx → EReal)) :
    W9 m ρ c (Proc.devRef .tc main_v84)
      = Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hhid := hidden_eq m ρ c hH
  rw [Cert.KernelIdeal.Hand2.W9_result m ρ c (m ((c.tc : Thread nD τ).loc main_arg5))
        ((W8_back_main_v3 m ρ c).trans (W3_src m ρ c)) ((W8_back_main_v6 m ρ c).trans (W3_dst m ρ c))
        ((W8_back_main_v29 m ρ c).trans (W3_norm m ρ c)),
    (W8_back_main_arg6 m ρ c).trans (W3_arg6 m ρ c), (W8_back_main_arg4 m ρ c).trans (W3_arg4 m ρ c),
    Tails.result_eq]
  refine congrArg (fun X => Tails.layer2 (F := Ideal) X (m ((c.tc : Thread nD τ).loc main_arg4)) (m ((c.tc : Thread nD τ).loc main_arg5))) ?_
  exact Second.second_product _ _ _ _ _ _ (W8 m ρ c (Proc.devRef .tc main_v53))
    (fun i j => Cert.KernelIdeal.Products.second_product m ρ c _ _ hhid hW i j)
    (RefReal.hidden_real _ _ _ _ h0 h1 h2) h3

end Cert.Hand.Bridge

end
-- ==== Proof.PreReal.lean ====
/-
  The precondition read back: every float argument is an array of real numbers.

  The precondition is the conjunction, over the five float arguments, of "every entry x has |x| < +infinity", each
  taken as an and-reduction of the compared array down to a single word, the five words and-ed together, and the result
  stated to be 1. At the ideal instance a float is an extended real, |x| is max x (-x), the word 0x7F800000 denotes
  the top element, and the comparison is the order's. So each entry satisfies max x (-x) < ⊤: x < ⊤ excludes the top
  element, -x < ⊤ excludes the bottom one, and what is left of the extended reals is the real line.
-/
import proofs.«115430_j29643864277064_2_alg».proof.Pre_finite_inputs
import proofs.«115430_j29643864277064_2_alg».proof.Proof.Gen.Pre_finite_inputs
import proofs.«115430_j29643864277064_2_alg».proof.Proof.Basic
import Idealize.ShloMosaic.Lib.ReduceAll
import Idealize.ShloMosaic.Lib.ValueIdx
import Idealize.ShloMosaic.PureOps.Ideal.Laws

namespace Cert.Hand.PreReal

open Idealize.ShloMosaic Idealize.ShloMosaic.ValueIdx Cert.Pre_finite_inputs

/-- The shape of a single word has exactly one index: there is no axis to choose a coordinate on. -/
instance : Subsingleton S_.Idx := ⟨fun a b => funext fun d => d.elim0⟩

/-- The f32 word with all exponent bits set, sign and fraction clear, denotes the top extended real. -/
theorem inf_word : Ideal.ofBits .f32 0x7F800000#32 = (⊤ : EReal) := by
  simp [Ideal.ofBits, Ideal.ieee]

/-- An extended real whose absolute value, max a (-a), lies strictly below +infinity is a real number:
    a < ⊤ rules out ⊤, and -a < ⊤ rules out ⊥. -/
theorem real_of_abs_lt_inf (a : EReal)
    (h : Ideal.cmp .olt (max a (-a)) (Ideal.ofBits .f32 0x7F800000#32) = 1#1) : ∃ r : ℝ, a = (r : EReal) := by
  rw [inf_word] at h
  have hlt : max a (-a) < ⊤ := by
    by_contra hn
    simp [Ideal.cmp, hn] at h
  induction a using EReal.rec with
  | bot => simp at hlt
  | coe r => exact ⟨r, rfl⟩
  | top => simp at hlt

/-- One conjunct, at any shape: if the and-reduction over all axes of the array of words "|x i| < +infinity" is 1,
    every entry of x is a real number. The reduction being 1 gives the compared word at each index; read at that
    index, the comparison is between max (x i) (-(x i)) and the infinity word, both sides definitionally. -/
theorem allReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32)))
        init hr hu ix0 = 1#1) :
    AllReal x := fun i =>
  real_of_abs_lt_inf (x i) (Host.reduce_andi_all _ init hr hu ix0 e i)

/-- The precondition at the ideal instance gives that each of the five float arguments is an array of reals.
    The result word is a four-fold and of the five reductions; an and of one-bit words is 1 only if both are. -/
theorem args_real [Cert.Pre_finite_inputs.Facts]
    (a0 : FVec Ideal S100000x256 .f32) (a1 : FVec Ideal S256x128 .f32) (a2 : FVec Ideal S128 .f32)
    (a3 : FVec Ideal S256x64 .f32) (a4 : FVec Ideal S64 .f32) (a5 : IVec S2x1600000 32) (a6 : IVec S100000 32)
    (h : Cert.Pre_finite_inputs.fn (F := Ideal) a0 a1 a2 a3 a4 a5 a6 = fun _ => 1#1) :
    AllReal a0 ∧ AllReal a1 ∧ AllReal a2 ∧ AllReal a3 ∧ AllReal a4 := by
  have h0 := congrFun h ix0
  dsimp only [fn, fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨allReal_of_all a0 _ _ _ _ e0, allReal_of_all a1 _ _ _ _ e1, allReal_of_all a2 _ _ _ _ e2,
    allReal_of_all a3 _ _ _ _ e3, allReal_of_all a4 _ _ _ _ e4⟩

end Cert.Hand.PreReal
-- ==== Proof.lean ====
/-
  The proof of `Cert.Claim` (proofs.«115430_j29643864277064_2_alg».proof.Defs): the three frames, `preserves` and `algebraic`.

  The kernel is a two-layer graph convolution over 100000 nodes and 1.7 million edges (the edge list with one
  self-loop per node appended). Each layer multiplies the node features by a weight, gathers the products' rows along
  the edges, scales each by the edge's symmetric degree normalisation, sums per destination node and adds a bias; the
  first layer is clamped below at zero. Between the layers the reference re-reads the hidden layer h through a
  permutation argument, c = h[perm], and feeds the concatenation [h − c, c] (width 256) to the second weight; the
  kernel instead multiplies h by the folded weight [W₁, W₂ − W₁] (W₁, W₂ the top and bottom halves of the second
  weight) in a second Pallas product and adds, for node i, the left half of row i to the right half of row perm[i].
  Over the extended reals the two agree by distributivity, which needs h and the weight to be real-valued: that is
  what the precondition (every float argument finite) is used for.

  * The frames of the two kernel programs are the generated ones; the reference's frame is its run with the result
    dropped (Proof/RefRun.lean).
  * `preserves`: the idealization rewrote no operation, so the conjunct is `True`.
  * `algebraic`: the kernel's run names its result as the last boundary's contents of the fold through @main's nine
    segments (Proof/KernelRun.lean); read back (Proof/KernelHost0, KernelHost1, KernelHost2, KernelKeeps), with each
    Pallas product's output array one whole matrix product (Proof/RegionArrays, Region1Array, Products), that contents
    is the reference's result as a function of the arguments (Proof/Bridge.lean, over Proof/SecondProduct.lean's
    entry-by-entry comparison of the two second layers, Proof/RefReal.lean's and Proof/PreReal.lean's real-valuedness,
    and the index lemmas of Proof/Layer2Reads and Layer2Layout). An out-of-range permutation or edge entry needs no
    hypothesis: a gather clamps its start index, to the same row in both programs.
-/
import proofs.«115430_j29643864277064_2_alg».proof.Defs
import proofs.«115430_j29643864277064_2_alg».proof.Proof.Gen.Kernel
import proofs.«115430_j29643864277064_2_alg».proof.Proof.Gen.Kernel.Skeleton
import proofs.«115430_j29643864277064_2_alg».proof.Proof.Gen.Kernel.Launch
import proofs.«115430_j29643864277064_2_alg».proof.Proof.Gen.Kernel.Points
import proofs.«115430_j29643864277064_2_alg».proof.Proof.Gen.Kernel.Frame
import proofs.«115430_j29643864277064_2_alg».proof.Proof.Gen.KernelIdeal
import proofs.«115430_j29643864277064_2_alg».proof.Proof.Gen.KernelIdeal.Skeleton
import proofs.«115430_j29643864277064_2_alg».proof.Proof.Gen.KernelIdeal.Launch
import proofs.«115430_j29643864277064_2_alg».proof.Proof.Gen.KernelIdeal.Points
import proofs.«115430_j29643864277064_2_alg».proof.Proof.Gen.KernelIdeal.Frame
import proofs.«115430_j29643864277064_2_alg».proof.Proof.Gen.ReferenceIdeal
import proofs.«115430_j29643864277064_2_alg».proof.Proof.Gen.Pre_finite_inputs
import proofs.«115430_j29643864277064_2_alg».proof.Proof.RefRun
import proofs.«115430_j29643864277064_2_alg».proof.Proof.RefRead
import proofs.«115430_j29643864277064_2_alg».proof.Proof.KernelRun
import proofs.«115430_j29643864277064_2_alg».proof.Proof.KernelHost1
import proofs.«115430_j29643864277064_2_alg».proof.Proof.Bridge
import proofs.«115430_j29643864277064_2_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array ends at the last boundary's contents of its
    run and the reference's at its composed term of the arguments; under the precondition these are one array. -/
theorem algebraic : Cert.algebraic_KernelIdeal_ReferenceIdeal := by
  intro m ρ m' ρ' hpre hagree
  refine ⟨fun c => Cert.KernelIdeal.Gen.W9 m ρ c (Proc.devRef .tc Cert.KernelIdeal.main_v84),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, -⟩ := Cert.Hand.PreReal.args_real _ _ _ _ _ _ _ (hpre c)
  rw [Cert.ReferenceIdeal.Read.val_main_v96_eq, (hagree c).1, (hagree c).2.1, (hagree c).2.2.1, (hagree c).2.2.2.1,
    (hagree c).2.2.2.2.1, (hagree c).2.2.2.2.2.1, (hagree c).2.2.2.2.2.2]
  exact (Cert.Hand.Bridge.kernel_result m ρ c (Cert.KernelIdeal.Hand1.W7_hidden m ρ c)
    (Cert.KernelIdeal.Hand1.W7_w2c m ρ c) r0 r1 r2 r3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
